-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v59)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v59) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v88) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x512 : Shape := ⟨2, ![100000, 512]⟩
abbrev S2x1600000 : Shape := ⟨2, ![2, 1600000]⟩
abbrev S128x512 : Shape := ⟨2, ![128, 512]⟩
abbrev S128 : Shape := ⟨1, ![128]⟩
abbrev S40x128 : Shape := ⟨2, ![40, 128]⟩
abbrev S40 : Shape := ⟨1, ![40]⟩
abbrev S_ : Shape := ⟨0, ![]⟩

class Facts : Prop where
  bcast_S_S100000x512 : S_.BroadcastsInDim S100000x512 (![] : Fin 0 → Fin S100000x512.rank)
  reducesTo_S100000x512_S_d0_1 : S100000x512.ReducesTo [0, 1] S_
  h_S_ : 0 < S_.numel
  bcast_S_S128x512 : S_.BroadcastsInDim S128x512 (![] : Fin 0 → Fin S128x512.rank)
  reducesTo_S128x512_S_d0_1 : S128x512.ReducesTo [0, 1] S_
  bcast_S_S128 : S_.BroadcastsInDim S128 (![] : Fin 0 → Fin S128.rank)
  reducesTo_S128_S_d0 : S128.ReducesTo [0] S_
  bcast_S_S40x128 : S_.BroadcastsInDim S40x128 (![] : Fin 0 → Fin S40x128.rank)
  reducesTo_S40x128_S_d0_1 : S40x128.ReducesTo [0, 1] S_
  bcast_S_S40 : S_.BroadcastsInDim S40 (![] : Fin 0 → Fin S40.rank)
  reducesTo_S40_S_d0 : S40.ReducesTo [0] S_

variable [Facts]

def fn_part1 {F : FTy → Type} [FloatOps F] (main_arg5 : FVec F S40 .f32) (main_v13 : IVec S_ 1) (main_v16 : IVec S40x128 1) : IVec S_ 1 :=
  let main_c_5 : IVec S_ 1 := constantI S_ 1 1#1
  let main_v17 : IVec S_ 1 := (fun x v => Host.reduce IntOp.andi x v reducesTo_S40x128_S_d0_1 h_S_) main_v16 main_c_5
  let main_v18 : IVec S_ 1 := andi main_v13 main_v17
  let main_v19 : FVec F S40 .f32 := Host.absf main_arg5
  let main_cst_6 : FVec F S_ .f32 := constant S_ .f32 0x7F800000#32
  let main_v20 : FVec F S40 .f32 := broadcastInDim S40 ![] bcast_S_S40 main_cst_6
  let main_v21 : IVec S40 1 := cmpf .olt main_v19 main_v20
  let main_c_7 : IVec S_ 1 := constantI S_ 1 1#1
  let main_v22 : IVec S_ 1 := (fun x v => Host.reduce IntOp.andi x v reducesTo_S40_S_d0 h_S_) main_v21 main_c_7
  let main_v23 : IVec S_ 1 := andi main_v18 main_v22
  main_v23

def fn {F : FTy → Type} [FloatOps F] (main_arg0 : FVec F S100000x512 .f32) (main_arg1 : IVec S2x1600000 32) (main_arg2 : FVec F S128x512 .f32) (main_arg3 : FVec F S128 .f32) (main_arg4 : FVec F S40x128 .f32) (main_arg5 : FVec F S40 .f32) : IVec S_ 1 :=
  let main_v0 : FVec F S100000x512 .f32 := Host.absf main_arg0
  let main_cst : FVec F S_ .f32 := constant S_ .f32 0x7F800000#32
  let main_v1 : FVec F S100000x512 .f32 := broadcastInDim S100000x512 ![] bcast_S_S100000x512 main_cst
  let main_v2 : IVec S100000x512 1 := cmpf .olt main_v0 main_v1
  let main_c : IVec S_ 1 := constantI S_ 1 1#1
  let main_v3 : IVec S_ 1 := (fun x v => Host.reduce IntOp.andi x v reducesTo_S100000x512_S_d0_1 h_S_) main_v2 main_c
  let main_v4 : FVec F S128x512 .f32 := Host.absf main_arg2
  let main_cst_0 : FVec F S_ .f32 := constant S_ .f32 0x7F800000#32
  let main_v5 : FVec F S128x512 .f32 := broadcastInDim S128x512 ![] bcast_S_S128x512 main_cst_0
  let main_v6 : IVec S128x512 1 := cmpf .olt main_v4 main_v5
  let main_c_1 : IVec S_ 1 := constantI S_ 1 1#1
  let main_v7 : IVec S_ 1 := (fun x v => Host.reduce IntOp.andi x v reducesTo_S128x512_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S40x128 .f32 := Host.absf main_arg4
  let main_cst_4 : FVec F S_ .f32 := constant S_ .f32 0x7F800000#32
  let main_v15 : FVec F S40x128 .f32 := broadcastInDim S40x128 ![] bcast_S_S40x128 main_cst_4
  let main_v16 : IVec S40x128 1 := cmpf .olt main_v14 main_v15
  fn_part1 (F := F) main_arg5 main_v13 main_v16
-- ==== Kernel.lean ====
abbrev S100000x512 : Shape := ⟨2, ![100000, 512]⟩
abbrev S2x1600000 : Shape := ⟨2, ![2, 1600000]⟩
abbrev S128x512 : Shape := ⟨2, ![128, 512]⟩
abbrev S128 : Shape := ⟨1, ![128]⟩
abbrev S40x128 : Shape := ⟨2, ![40, 128]⟩
abbrev S40 : Shape := ⟨1, ![40]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S512x128 : Shape := ⟨2, ![512, 128]⟩
abbrev S128x40 : Shape := ⟨2, ![128, 40]⟩
abbrev S1x128 : Shape := ⟨2, ![1, 128]⟩
abbrev S100000x128 : Shape := ⟨2, ![100000, 128]⟩
abbrev S5000x512 : Shape := ⟨2, ![5000, 512]⟩
abbrev S5000x128 : Shape := ⟨2, ![5000, 128]⟩
abbrev S1600000x128 : Shape := ⟨2, ![1600000, 128]⟩
abbrev S100000x40 : Shape := ⟨2, ![100000, 40]⟩
abbrev S5000x40 : Shape := ⟨2, ![5000, 40]⟩
abbrev S1600000x40 : Shape := ⟨2, ![1600000, 40]⟩
abbrev S1x40 : Shape := ⟨2, ![1, 40]⟩

abbrev nBuf : Space → Nat
  | .hbm => 79
  | .vmem => 11
  | .smem => 0
  | _ => 0

abbrev bufTy : (tb : Table) → Fin (tcTables nBuf tb) → BufTy
  | .hbm, ⟨0, _⟩ => ⟨S100000x512, .f32⟩
  | .hbm, ⟨1, _⟩ => ⟨S2x1600000, .i32⟩
  | .hbm, ⟨2, _⟩ => ⟨S128x512, .f32⟩
  | .hbm, ⟨3, _⟩ => ⟨S128, .f32⟩
  | .hbm, ⟨4, _⟩ => ⟨S40x128, .f32⟩
  | .hbm, ⟨5, _⟩ => ⟨S40, .f32⟩
  | .hbm, ⟨6, _⟩ => ⟨S1x1600000, .i32⟩
  | .hbm, ⟨7, _⟩ => ⟨S1600000, .i32⟩
  | .hbm, ⟨8, _⟩ => ⟨S1x1600000, .i32⟩
  | .hbm, ⟨9, _⟩ => ⟨S1600000, .i32⟩
  | .hbm, ⟨10, _⟩ => ⟨S_, .f32⟩
  | .hbm, ⟨11, _⟩ => ⟨S1600000, .f32⟩
  | .hbm, ⟨12, _⟩ => ⟨S_, .f32⟩
  | .hbm, ⟨13, _⟩ => ⟨S100000, .f32⟩
  | .hbm, ⟨14, _⟩ => ⟨S1600000x1, .i32⟩
  | .hbm, ⟨15, _⟩ => ⟨S100000, .f32⟩
  | .hbm, ⟨16, _⟩ => ⟨S_, .f32⟩
  | .hbm, ⟨17, _⟩ => ⟨S100000, .f32⟩
  | .hbm, ⟨18, _⟩ => ⟨S100000, .f32⟩
  | .hbm, ⟨19, _⟩ => ⟨S100000, .f32⟩
  | .hbm, ⟨20, _⟩ => ⟨S_, .i32⟩
  | .hbm, ⟨21, _⟩ => ⟨S1600000, .i32⟩
  | .hbm, ⟨22, _⟩ => ⟨S1600000, .i1⟩
  | .hbm, ⟨23, _⟩ => ⟨S_, .i32⟩
  | .hbm, ⟨24, _⟩ => ⟨S1600000, .i32⟩
  | .hbm, ⟨25, _⟩ => ⟨S1600000, .i32⟩
  | .hbm, ⟨26, _⟩ => ⟨S1600000, .i32⟩
  | .hbm, ⟨27, _⟩ => ⟨S1600000x1, .i32⟩
  | .hbm, ⟨28, _⟩ => ⟨S1600000, .f32⟩
  | .hbm, ⟨29, _⟩ => ⟨S_, .i32⟩
  | .hbm, ⟨30, _⟩ => ⟨S1600000, .i32⟩
  | .hbm, ⟨31, _⟩ => ⟨S1600000, .i1⟩
  | .hbm, ⟨32, _⟩ => ⟨S_, .i32⟩
  | .hbm, ⟨33, _⟩ => ⟨S1600000, .i32⟩
  | .hbm, ⟨34, _⟩ => ⟨S1600000, .i32⟩
  | .hbm, ⟨35, _⟩ => ⟨S1600000, .i32⟩
  | .hbm, ⟨36, _⟩ => ⟨S1600000x1, .i32⟩
  | .hbm, ⟨37, _⟩ => ⟨S1600000, .f32⟩
  | .hbm, ⟨38, _⟩ => ⟨S1600000, .f32⟩
  | .hbm, ⟨39, _⟩ => ⟨S512x128, .f32⟩
  | .hbm, ⟨40, _⟩ => ⟨S128x40, .f32⟩
  | .hbm, ⟨41, _⟩ => ⟨S1x128, .f32⟩
  | .hbm, ⟨42, _⟩ => ⟨S100000x128, .f32⟩
  | .hbm, ⟨43, _⟩ => ⟨S_, .i32⟩
  | .hbm, ⟨44, _⟩ => ⟨S1600000, .i32⟩
  | .hbm, ⟨45, _⟩ => ⟨S1600000, .i1⟩
  | .hbm, ⟨46, _⟩ => ⟨S_, .i32⟩
  | .hbm, ⟨47, _⟩ => ⟨S1600000, .i32⟩
  | .hbm, ⟨48, _⟩ => ⟨S1600000, .i32⟩
  | .hbm, ⟨49, _⟩ => ⟨S1600000, .i32⟩
  | .hbm, ⟨50, _⟩ => ⟨S1600000x1, .i32⟩
  | .hbm, ⟨51, _⟩ => ⟨S1600000x128, .f32⟩
  | .hbm, ⟨52, _⟩ => ⟨S1600000x1, .f32⟩
  | .hbm, ⟨53, _⟩ => ⟨S1600000x128, .f32⟩
  | .hbm, ⟨54, _⟩ => ⟨S1600000x128, .f32⟩
  | .hbm, ⟨55, _⟩ => ⟨S_, .f32⟩
  | .hbm, ⟨56, _⟩ => ⟨S100000x128, .f32⟩
  | .hbm, ⟨57, _⟩ => ⟨S1600000x1, .i32⟩
  | .hbm, ⟨58, _⟩ => ⟨S100000x128, .f32⟩
  | .hbm, ⟨59, _⟩ => ⟨S100000x40, .f32⟩
  | .hbm, ⟨60, _⟩ => ⟨S_, .i32⟩
  | .hbm, ⟨61, _⟩ => ⟨S1600000, .i32⟩
  | .hbm, ⟨62, _⟩ => ⟨S1600000, .i1⟩
  | .hbm, ⟨63, _⟩ => ⟨S_, .i32⟩
  | .hbm, ⟨64, _⟩ => ⟨S1600000, .i32⟩
  | .hbm, ⟨65, _⟩ => ⟨S1600000, .i32⟩
  | .hbm, ⟨66, _⟩ => ⟨S1600000, .i32⟩
  | .hbm, ⟨67, _⟩ => ⟨S1600000x1, .i32⟩
  | .hbm, ⟨68, _⟩ => ⟨S1600000x40, .f32⟩
  | .hbm, ⟨69, _⟩ => ⟨S1600000x1, .f32⟩
  | .hbm, ⟨70, _⟩ => ⟨S1600000x40, .f32⟩
  | .hbm, ⟨71, _⟩ => ⟨S1600000x40, .f32⟩
  | .hbm, ⟨72, _⟩ => ⟨S_, .f32⟩
  | .hbm, ⟨73, _⟩ => ⟨S100000x40, .f32⟩
  | .hbm, ⟨74, _⟩ => ⟨S1600000x1, .i32⟩
  | .hbm, ⟨75, _⟩ => ⟨S100000x40, .f32⟩
  | .hbm, ⟨76, _⟩ => ⟨S1x40, .f32⟩
  | .hbm, ⟨77, _⟩ => ⟨S100000x40, .f32⟩
  | .hbm, ⟨78, _⟩ => ⟨S100000x40, .f32⟩
  | .local _ .vmem, ⟨0, _⟩ => ⟨S5000x512, .f32⟩
  | .local _ .vmem, ⟨1, _⟩ => ⟨S5000x512, .f32⟩
  | .local _ .vmem, ⟨2, _⟩ => ⟨S512x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S128x40, .f32⟩
  | .local _ .vmem, ⟨9, _⟩ => ⟨S5000x40, .f32⟩
  | .local _ .vmem, ⟨10, _⟩ => ⟨S5000x40, .f32⟩
  | _, _ => ⟨S100000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_c : Ref sig .tc := ⟨.hbm, 20, rfl⟩
abbrev main_v11 : Ref sig .tc := ⟨.hbm, 21, rfl⟩
abbrev main_v12 : Ref sig .tc := ⟨.hbm, 22, rfl⟩
abbrev main_c_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_c_3 : Ref sig .tc := ⟨.hbm, 29, rfl⟩
abbrev main_v18 : Ref sig .tc := ⟨.hbm, 30, rfl⟩
abbrev main_v19 : Ref sig .tc := ⟨.hbm, 31, rfl⟩
abbrev main_c_4 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_c_5 : Ref sig .tc := ⟨.hbm, 43, rfl⟩
abbrev main_v30 : Ref sig .tc := ⟨.hbm, 44, rfl⟩
abbrev main_v31 : Ref sig .tc := ⟨.hbm, 45, rfl⟩
abbrev main_c_6 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_cst_7 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_c_8 : Ref sig .tc := ⟨.hbm, 60, rfl⟩
abbrev main_v44 : Ref sig .tc := ⟨.hbm, 61, rfl⟩
abbrev main_v45 : Ref sig .tc := ⟨.hbm, 62, rfl⟩
abbrev main_c_9 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_cst_10 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128x40 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x40 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  transposes_S128x512_S512x128_1_0 : S128x512.Transposes [1, 0] S512x128
  transposes_S40x128_S128x40_1_0 : S40x128.Transposes [1, 0] S128x40
  shapeCasts_S128_S1x128 : S128.ShapeCasts S1x128
  inb_S5000x512_S5000x512_0_0 : ∀ a, (![0, 0] : Fin 2 → Nat) a + S5000x512.size a ≤ S5000x512.size a
  h_S5000x512 : 0 < S5000x512.numel
  bitsLt_bf16_f32 : FTy.bits .bf16 < FTy.bits .f32
  inb_S512x128_S512x128_0_0 : ∀ a, (![0, 0] : Fin 2 → Nat) a + S512x128.size a ≤ S512x128.size a
  h_S512x128 : 0 < S512x128.numel
  shapeCasts_S512x128_S512x128 : S512x128.ShapeCasts S512x128
  inb_S5000x128_S5000x128_0_0 : ∀ a, (![0, 0] : Fin 2 → Nat) a + S5000x128.size a ≤ S5000x128.size a
  h_S5000x128 : 0 < S5000x128.numel
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x40_S128x40_0_0 : ∀ a, (![0, 0] : Fin 2 → Nat) a + S128x40.size a ≤ S128x40.size a
  h_S128x40 : 0 < S128x40.numel
  shapeCasts_S128x40_S128x40 : S128x40.ShapeCasts S128x40
  inb_S5000x40_S5000x40_0_0 : ∀ a, (![0, 0] : Fin 2 → Nat) a + S5000x40.size a ≤ S5000x40.size a
  h_S5000x40 : 0 < S5000x40.numel
  bcast_S1600000x1_S1600000x40_0_1 : S1600000x1.BroadcastsInDim S1600000x40 (![0, 1] : Fin 2 → Fin S1600000x40.rank)
  bcast_S_S100000x40 : S_.BroadcastsInDim S100000x40 (![] : Fin 0 → Fin S100000x40.rank)
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  dot_S5000x512_S512x128_S5000x128_1_0_0_1_n_n_wf : DotDims.WF S5000x512 S512x128 S5000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x40_S5000x40_1_0_0_1_n_n_wf : DotDims.WF S5000x128 S128x40 S5000x40 [1] [0] [0] [1] [] []
  gather_S100000x40_S1600000x1_S1600000x40_1_0_n_n_0_1_140_wf : GatherDims.WF S100000x40 S1600000x1 S1600000x40 [1] [0] [] [0] [] 1 ![1, 40]
  scatter_S100000x40_S1600000x1_S1600000x40_1_0_0_1_wf : ScatterDims.WF S100000x40 S1600000x1 S1600000x40 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x512.size a ≤ S100000x512.size a
  hwx0_0 : ∀ i : grid0.Coords, EltTy.bits .f32 = 32 ∨ (Rect.block (s := S100000x512) S5000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x128.size a ≤ S512x128.size a
  hwx0_1 : ∀ i : grid0.Coords, EltTy.bits .f32 = 32 ∨ (Rect.block (s := S512x128) S512x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x40.size a ≤ S128x40.size a
  hwx1_2 : ∀ i : grid1.Coords, EltTy.bits .f32 = 32 ∨ (Rect.block (s := S128x40) S128x40.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x40.size a ≤ S100000x40.size a
  hwx1_3 : ∀ i : grid1.Coords, EltTy.bits .f32 = 32 ∨ (Rect.block (s := S100000x40) S5000x40.size (cc1_transform_3 i) (hinb1_3 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def dot_S5000x512_S512x128_S5000x128_1_0_0_1_n_n : DotDims S5000x512 S512x128 S5000x128 where
  lhsContracting := [1]
  rhsContracting := [0]
  lhsNonContracting := [0]
  rhsNonContracting := [1]
  lhsBatch := []
  rhsBatch := []
  wf := dot_S5000x512_S512x128_S5000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x40_S5000x40_1_0_0_1_n_n : DotDims S5000x128 S128x40 S5000x40 where
  lhsContracting := [1]
  rhsContracting := [0]
  lhsNonContracting := [0]
  rhsNonContracting := [1]
  lhsBatch := []
  rhsBatch := []
  wf := dot_S5000x128_S128x40_S5000x40_1_0_0_1_n_n_wf
def gather_S100000x40_S1600000x1_S1600000x40_1_0_n_n_0_1_140 : GatherDims S100000x40 S1600000x1 S1600000x40 where
  offsetDims := [1]
  collapsedSliceDims := [0]
  operandBatchingDims := []
  startIndicesBatchingDims := []
  startIndexMap := [0]
  indexVectorDim := 1
  sliceSizes := ![1, 40]
  wf := gather_S100000x40_S1600000x1_S1600000x40_1_0_n_n_0_1_140_wf
def scatter_S100000x40_S1600000x1_S1600000x40_1_0_0_1 : ScatterDims S100000x40 S1600000x1 S1600000x40 where
  updateWindowDims := [1]
  insertedWindowDims := [0]
  scatterDimsToOperandDims := [0]
  indexVectorDim := 1
  wf := scatter_S100000x40_S1600000x1_S1600000x40_1_0_0_1_wf

abbrev win0_0 : Pipeline.Window sig grid0 :=
  Pipeline.Window.ofSpec (Memref.whole main_arg0) S5000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v26) S512x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v29) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v42) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v28) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v27) S128x40.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v43) S5000x40.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S100000x512 : Shape := ⟨2, ![100000, 512]⟩
abbrev S2x1600000 : Shape := ⟨2, ![2, 1600000]⟩
abbrev S128x512 : Shape := ⟨2, ![128, 512]⟩
abbrev S128 : Shape := ⟨1, ![128]⟩
abbrev S40x128 : Shape := ⟨2, ![40, 128]⟩
abbrev S40 : Shape := ⟨1, ![40]⟩
abbrev S512x128 : Shape := ⟨2, ![512, 128]⟩
abbrev S100000x128 : Shape := ⟨2, ![100000, 128]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S1600000x128 : Shape := ⟨2, ![1600000, 128]⟩
abbrev S1x128 : Shape := ⟨2, ![1, 128]⟩
abbrev S128x40 : Shape := ⟨2, ![128, 40]⟩
abbrev S100000x40 : Shape := ⟨2, ![100000, 40]⟩
abbrev S1600000x40 : Shape := ⟨2, ![1600000, 40]⟩
abbrev S1x40 : Shape := ⟨2, ![1, 40]⟩

abbrev nBuf : Space → Nat
  | .hbm => 117
  | .vmem => 0
  | .smem => 0
  | _ => 0

abbrev bufTy : (tb : Table) → Fin (tcTables nBuf tb) → BufTy
  | .hbm, ⟨0, _⟩ => ⟨S100000x512, .f32⟩
  | .hbm, ⟨1, _⟩ => ⟨S2x1600000, .i32⟩
  | .hbm, ⟨2, _⟩ => ⟨S128x512, .f32⟩
  | .hbm, ⟨3, _⟩ => ⟨S128, .f32⟩
  | .hbm, ⟨4, _⟩ => ⟨S40x128, .f32⟩
  | .hbm, ⟨5, _⟩ => ⟨S40, .f32⟩
  | .hbm, ⟨6, _⟩ => ⟨S512x128, .f32⟩
  | .hbm, ⟨7, _⟩ => ⟨S100000x128, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .f32⟩
  | .hbm, ⟨13, _⟩ => ⟨S1600000, .f32⟩
  | .hbm, ⟨14, _⟩ => ⟨S_, .f32⟩
  | .hbm, ⟨15, _⟩ => ⟨S100000, .f32⟩
  | .hbm, ⟨16, _⟩ => ⟨S1600000x1, .i32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S100000, .f32⟩
  | .hbm, ⟨21, _⟩ => ⟨S100000, .f32⟩
  | .hbm, ⟨22, _⟩ => ⟨S_, .i32⟩
  | .hbm, ⟨23, _⟩ => ⟨S1600000, .i32⟩
  | .hbm, ⟨24, _⟩ => ⟨S1600000, .i1⟩
  | .hbm, ⟨25, _⟩ => ⟨S_, .i32⟩
  | .hbm, ⟨26, _⟩ => ⟨S1600000, .i32⟩
  | .hbm, ⟨27, _⟩ => ⟨S1600000, .i32⟩
  | .hbm, ⟨28, _⟩ => ⟨S1600000, .i32⟩
  | .hbm, ⟨29, _⟩ => ⟨S1600000x1, .i32⟩
  | .hbm, ⟨30, _⟩ => ⟨S1600000, .f32⟩
  | .hbm, ⟨31, _⟩ => ⟨S_, .i32⟩
  | .hbm, ⟨32, _⟩ => ⟨S1600000, .i32⟩
  | .hbm, ⟨33, _⟩ => ⟨S1600000, .i1⟩
  | .hbm, ⟨34, _⟩ => ⟨S_, .i32⟩
  | .hbm, ⟨35, _⟩ => ⟨S1600000, .i32⟩
  | .hbm, ⟨36, _⟩ => ⟨S1600000, .i32⟩
  | .hbm, ⟨37, _⟩ => ⟨S1600000, .i32⟩
  | .hbm, ⟨38, _⟩ => ⟨S1600000x1, .i32⟩
  | .hbm, ⟨39, _⟩ => ⟨S1600000, .f32⟩
  | .hbm, ⟨40, _⟩ => ⟨S1600000, .f32⟩
  | .hbm, ⟨41, _⟩ => ⟨S_, .i32⟩
  | .hbm, ⟨42, _⟩ => ⟨S1600000, .i32⟩
  | .hbm, ⟨43, _⟩ => ⟨S1600000, .i1⟩
  | .hbm, ⟨44, _⟩ => ⟨S_, .i32⟩
  | .hbm, ⟨45, _⟩ => ⟨S1600000, .i32⟩
  | .hbm, ⟨46, _⟩ => ⟨S1600000, .i32⟩
  | .hbm, ⟨47, _⟩ => ⟨S1600000, .i32⟩
  | .hbm, ⟨48, _⟩ => ⟨S1600000x1, .i32⟩
  | .hbm, ⟨49, _⟩ => ⟨S1600000x128, .f32⟩
  | .hbm, ⟨50, _⟩ => ⟨S1600000x1, .f32⟩
  | .hbm, ⟨51, _⟩ => ⟨S1600000x128, .f32⟩
  | .hbm, ⟨52, _⟩ => ⟨S1600000x128, .f32⟩
  | .hbm, ⟨53, _⟩ => ⟨S_, .f32⟩
  | .hbm, ⟨54, _⟩ => ⟨S100000x128, .f32⟩
  | .hbm, ⟨55, _⟩ => ⟨S1600000x1, .i32⟩
  | .hbm, ⟨56, _⟩ => ⟨S100000x128, .f32⟩
  | .hbm, ⟨57, _⟩ => ⟨S1x128, .f32⟩
  | .hbm, ⟨58, _⟩ => ⟨S100000x128, .f32⟩
  | .hbm, ⟨59, _⟩ => ⟨S100000x128, .f32⟩
  | .hbm, ⟨60, _⟩ => ⟨S_, .f32⟩
  | .hbm, ⟨61, _⟩ => ⟨S100000x128, .f32⟩
  | .hbm, ⟨62, _⟩ => ⟨S100000x128, .f32⟩
  | .hbm, ⟨63, _⟩ => ⟨S128x40, .f32⟩
  | .hbm, ⟨64, _⟩ => ⟨S100000x40, .f32⟩
  | .hbm, ⟨65, _⟩ => ⟨S1x1600000, .i32⟩
  | .hbm, ⟨66, _⟩ => ⟨S1600000, .i32⟩
  | .hbm, ⟨67, _⟩ => ⟨S1x1600000, .i32⟩
  | .hbm, ⟨68, _⟩ => ⟨S1600000, .i32⟩
  | .hbm, ⟨69, _⟩ => ⟨S_, .f32⟩
  | .hbm, ⟨70, _⟩ => ⟨S1600000, .f32⟩
  | .hbm, ⟨71, _⟩ => ⟨S_, .f32⟩
  | .hbm, ⟨72, _⟩ => ⟨S100000, .f32⟩
  | .hbm, ⟨73, _⟩ => ⟨S1600000x1, .i32⟩
  | .hbm, ⟨74, _⟩ => ⟨S100000, .f32⟩
  | .hbm, ⟨75, _⟩ => ⟨S_, .f32⟩
  | .hbm, ⟨76, _⟩ => ⟨S100000, .f32⟩
  | .hbm, ⟨77, _⟩ => ⟨S100000, .f32⟩
  | .hbm, ⟨78, _⟩ => ⟨S100000, .f32⟩
  | .hbm, ⟨79, _⟩ => ⟨S_, .i32⟩
  | .hbm, ⟨80, _⟩ => ⟨S1600000, .i32⟩
  | .hbm, ⟨81, _⟩ => ⟨S1600000, .i1⟩
  | .hbm, ⟨82, _⟩ => ⟨S_, .i32⟩
  | .hbm, ⟨83, _⟩ => ⟨S1600000, .i32⟩
  | .hbm, ⟨84, _⟩ => ⟨S1600000, .i32⟩
  | .hbm, ⟨85, _⟩ => ⟨S1600000, .i32⟩
  | .hbm, ⟨86, _⟩ => ⟨S1600000x1, .i32⟩
  | .hbm, ⟨87, _⟩ => ⟨S1600000, .f32⟩
  | .hbm, ⟨88, _⟩ => ⟨S_, .i32⟩
  | .hbm, ⟨89, _⟩ => ⟨S1600000, .i32⟩
  | .hbm, ⟨90, _⟩ => ⟨S1600000, .i1⟩
  | .hbm, ⟨91, _⟩ => ⟨S_, .i32⟩
  | .hbm, ⟨92, _⟩ => ⟨S1600000, .i32⟩
  | .hbm, ⟨93, _⟩ => ⟨S1600000, .i32⟩
  | .hbm, ⟨94, _⟩ => ⟨S1600000, .i32⟩
  | .hbm, ⟨95, _⟩ => ⟨S1600000x1, .i32⟩
  | .hbm, ⟨96, _⟩ => ⟨S1600000, .f32⟩
  | .hbm, ⟨97, _⟩ => ⟨S1600000, .f32⟩
  | .hbm, ⟨98, _⟩ => ⟨S_, .i32⟩
  | .hbm, ⟨99, _⟩ => ⟨S1600000, .i32⟩
  | .hbm, ⟨100, _⟩ => ⟨S1600000, .i1⟩
  | .hbm, ⟨101, _⟩ => ⟨S_, .i32⟩
  | .hbm, ⟨102, _⟩ => ⟨S1600000, .i32⟩
  | .hbm, ⟨103, _⟩ => ⟨S1600000, .i32⟩
  | .hbm, ⟨104, _⟩ => ⟨S1600000, .i32⟩
  | .hbm, ⟨105, _⟩ => ⟨S1600000x1, .i32⟩
  | .hbm, ⟨106, _⟩ => ⟨S1600000x40, .f32⟩
  | .hbm, ⟨107, _⟩ => ⟨S1600000x1, .f32⟩
  | .hbm, ⟨108, _⟩ => ⟨S1600000x40, .f32⟩
  | .hbm, ⟨109, _⟩ => ⟨S1600000x40, .f32⟩
  | .hbm, ⟨110, _⟩ => ⟨S_, .f32⟩
  | .hbm, ⟨111, _⟩ => ⟨S100000x40, .f32⟩
  | .hbm, ⟨112, _⟩ => ⟨S1600000x1, .i32⟩
  | .hbm, ⟨113, _⟩ => ⟨S100000x40, .f32⟩
  | .hbm, ⟨114, _⟩ => ⟨S1x40, .f32⟩
  | .hbm, ⟨115, _⟩ => ⟨S100000x40, .f32⟩
  | .hbm, ⟨116, _⟩ => ⟨S100000x40, .f32⟩
  | _, _ => ⟨S100000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_c : Ref sig .tc := ⟨.hbm, 22, rfl⟩
abbrev main_v13 : Ref sig .tc := ⟨.hbm, 23, rfl⟩
abbrev main_v14 : Ref sig .tc := ⟨.hbm, 24, rfl⟩
abbrev main_c_2 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_c_3 : Ref sig .tc := ⟨.hbm, 31, rfl⟩
abbrev main_v20 : Ref sig .tc := ⟨.hbm, 32, rfl⟩
abbrev main_v21 : Ref sig .tc := ⟨.hbm, 33, rfl⟩
abbrev main_c_4 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_c_5 : Ref sig .tc := ⟨.hbm, 41, rfl⟩
abbrev main_v28 : Ref sig .tc := ⟨.hbm, 42, rfl⟩
abbrev main_v29 : Ref sig .tc := ⟨.hbm, 43, rfl⟩
abbrev main_c_6 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_cst_7 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_call0_cst : Ref sig .tc := ⟨.hbm, 60, rfl⟩
abbrev main_call0_v0 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_cst_8 : Ref sig .tc := ⟨.hbm, 69, rfl⟩
abbrev main_v51 : Ref sig .tc := ⟨.hbm, 70, rfl⟩
abbrev main_cst_9 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_cst_10 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_c_11 : Ref sig .tc := ⟨.hbm, 79, rfl⟩
abbrev main_v58 : Ref sig .tc := ⟨.hbm, 80, rfl⟩
abbrev main_v59 : Ref sig .tc := ⟨.hbm, 81, rfl⟩
abbrev main_c_12 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_c_13 : Ref sig .tc := ⟨.hbm, 88, rfl⟩
abbrev main_v65 : Ref sig .tc := ⟨.hbm, 89, rfl⟩
abbrev main_v66 : Ref sig .tc := ⟨.hbm, 90, rfl⟩
abbrev main_c_14 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_c_15 : Ref sig .tc := ⟨.hbm, 98, rfl⟩
abbrev main_v73 : Ref sig .tc := ⟨.hbm, 99, rfl⟩
abbrev main_v74 : Ref sig .tc := ⟨.hbm, 100, rfl⟩
abbrev main_c_16 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_cst_17 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩

abbrev nD : Nat := 1
abbrev τ : Topo := Topo.v7x

variable {F : FTy → Type} [FloatOps F]

class Facts₀ : Prop where
  transposes_S128x512_S512x128_1_0 : S128x512.Transposes [1, 0] S512x128
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  transposes_S40x128_S128x40_1_0 : S40x128.Transposes [1, 0] S128x40
  bcast_S1600000x1_S1600000x40_0_1 : S1600000x1.BroadcastsInDim S1600000x40 (![0, 1] : Fin 2 → Fin S1600000x40.rank)
  bcast_S_S100000x40 : S_.BroadcastsInDim S100000x40 (![] : Fin 0 → Fin S100000x40.rank)
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  dot_S100000x512_S512x128_S100000x128_1_0_0_1_n_n_wf : DotDims.WF S100000x512 S512x128 S100000x128 [1] [0] [0] [1] [] []
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x40_S100000x40_1_0_0_1_n_n_wf : DotDims.WF S100000x128 S128x40 S100000x40 [1] [0] [0] [1] [] []
  gather_S100000x40_S1600000x1_S1600000x40_1_0_n_n_0_1_140_wf : GatherDims.WF S100000x40 S1600000x1 S1600000x40 [1] [0] [] [0] [] 1 ![1, 40]
  scatter_S100000x40_S1600000x1_S1600000x40_1_0_0_1_wf : ScatterDims.WF S100000x40 S1600000x1 S1600000x40 [1] [0] [0] 1

variable [Facts₀]

def dot_S100000x512_S512x128_S100000x128_1_0_0_1_n_n : DotDims S100000x512 S512x128 S100000x128 where
  lhsContracting := [1]
  rhsContracting := [0]
  lhsNonContracting := [0]
  rhsNonContracting := [1]
  lhsBatch := []
  rhsBatch := []
  wf := dot_S100000x512_S512x128_S100000x128_1_0_0_1_n_n_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x40_S100000x40_1_0_0_1_n_n : DotDims S100000x128 S128x40 S100000x40 where
  lhsContracting := [1]
  rhsContracting := [0]
  lhsNonContracting := [0]
  rhsNonContracting := [1]
  lhsBatch := []
  rhsBatch := []
  wf := dot_S100000x128_S128x40_S100000x40_1_0_0_1_n_n_wf
def gather_S100000x40_S1600000x1_S1600000x40_1_0_n_n_0_1_140 : GatherDims S100000x40 S1600000x1 S1600000x40 where
  offsetDims := [1]
  collapsedSliceDims := [0]
  operandBatchingDims := []
  startIndicesBatchingDims := []
  startIndexMap := [0]
  indexVectorDim := 1
  sliceSizes := ![1, 40]
  wf := gather_S100000x40_S1600000x1_S1600000x40_1_0_n_n_0_1_140_wf
def scatter_S100000x40_S1600000x1_S1600000x40_1_0_0_1 : ScatterDims S100000x40 S1600000x1 S1600000x40 where
  updateWindowDims := [1]
  insertedWindowDims := [0]
  scatterDimsToOperandDims := [0]
  indexVectorDim := 1
  wf := scatter_S100000x40_S1600000x1_S1600000x40_1_0_0_1_wf

class Facts : Prop extends Facts₀ where

variable [Facts]
-- ==== Proof.KernelRun.lean ====
/-
  The kernel program's run with its result named.

  @main is five segments: the host operations that prepare the edge weights and the transposed weights, the first
  pallas_call, the host operations of the first aggregation, the second pallas_call, and the host operations of the
  second aggregation and the output bias. Every weakly fair execution ends with every unscoped buffer at the contents
  the segments' fold `W5` gives it; read at the result buffer that is the program's value, and read at the
  arguments it is the launch memory.
-/
import proofs.«125614_j10385230922554_1_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- Every weakly fair execution of @main terminates, nothing faulting, with the result buffer at the segments' fold
    read there and the argument arrays as launched. -/
theorem run : θ_run defs (onTc (τ := τ) (main (F := F))) ⟨m, fun _ => 0, ρ⟩ (fun r => ∀ c : Dev nD,
      r.2.mem ((c.tc : Thread nD τ).loc main_v59) = W5 m ρ c (Proc.devRef .tc main_v59)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v59 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c)⟩)

end Cert.KernelIdeal.RunValue

end
-- ==== Proof.KernelGraph.lean ====
/-
  The graph side of the network as functions of the edge list, over the vocabulary of the kernel program.

  The edge list is a `2 × 1600000` integer array: row 0 holds each edge's source node, row 1 its destination.
  A node's degree is the number of edges that end at it (a scatter-add of ones over the destinations), clamped
  below at one; an edge's weight is `1/√deg(source) · 1/√deg(destination)` (two gathers of the reciprocal square
  roots, negative node indices wrapped by the node count). An aggregation gathers each edge's source row of a
  feature array, scales it by the edge's weight, and scatter-adds it into the destination's row of a zero array.
  These are the host operations both programs apply; they are named here so that the certificate carries them as
  whole functions and never opens them.
-/
import proofs.«125614_j10385230922554_1_alg».proof.KernelIdeal
import proofs.«125614_j10385230922554_1_alg».proof.Proof.Gen.KernelIdeal

noncomputable section

namespace Cert.KernelIdeal.Graph

open Cert.KernelIdeal Cert.KernelIdeal.Gen Idealize.ShloMosaic

variable {F : FTy → Type} [FloatOps F]

/-- Each edge's source node: row 0 of the edge list. -/
def srcRow (e : (⟨S2x1600000, .i32⟩ : BufTy).Contents (Elt F)) : (⟨S1600000, .i32⟩ : BufTy).Contents (Elt F) :=
  shapeCast S1600000 (extractStridedSlice S1x1600000 ![0, 0] e slices_S2x1600000_S1x1600000_0_0) shapeCasts_S1x1600000_S1600000

/-- Each edge's destination node: row 1 of the edge list. -/
def dstRow (e : (⟨S2x1600000, .i32⟩ : BufTy).Contents (Elt F)) : (⟨S1600000, .i32⟩ : BufTy).Contents (Elt F) :=
  shapeCast S1600000 (extractStridedSlice S1x1600000 ![1, 0] e slices_S2x1600000_S1x1600000_1_0) shapeCasts_S1x1600000_S1600000

/-- A vector of node indices as the index column of a scatter. -/
def col (r : (⟨S1600000, .i32⟩ : BufTy).Contents (Elt F)) : (⟨S1600000x1, .i32⟩ : BufTy).Contents (Elt F) :=
  broadcastInDim S1600000x1 ![0] bcast_S1600000_S1600000x1_0 r

/-- A vector of node indices as the index column of a gather: a negative index is wrapped by the node count. -/
def wrapCol (r : (⟨S1600000, .i32⟩ : BufTy).Contents (Elt F)) : (⟨S1600000x1, .i32⟩ : BufTy).Contents (Elt F) :=
  broadcastInDim S1600000x1 ![0] bcast_S1600000_S1600000x1_0
    (select (cmpi .slt r (broadcastInDim S1600000 ![] bcast_S_S1600000 (constantI S_ 32 0#32)))
      (addi r (broadcastInDim S1600000 ![] bcast_S_S1600000 (constantI S_ 32 100000#32))) r)

/-- `1/√max(deg, 1)` per node, the degree counted over the destinations `d`. -/
def invSqrtDeg (d : (⟨S1600000, .i32⟩ : BufTy).Contents (Elt F)) : (⟨S100000, .f32⟩ : BufTy).Contents (Elt F) :=
  Host.rsqrt (maximumf
    (Host.scatterAdd scatter_S100000_S1600000x1_S1600000_n_0_0_1
      (broadcastInDim S100000 ![] bcast_S_S100000 (constant S_ .f32 0x00000000#32)) (col d)
      (broadcastInDim S1600000 ![] bcast_S_S1600000 (constant S_ .f32 0x3F800000#32)))
    (broadcastInDim S100000 ![] bcast_S_S100000 (constant S_ .f32 0x3F800000#32)))

/-- The weight of each edge: the product of its two end nodes' reciprocal square-root degrees. -/
def weight (s d : (⟨S1600000, .i32⟩ : BufTy).Contents (Elt F)) : (⟨S1600000, .f32⟩ : BufTy).Contents (Elt F) :=
  mulf (Host.gather gather_S100000_S1600000x1_S1600000_n_0_n_n_0_1_1 (invSqrtDeg d) (wrapCol s))
    (Host.gather gather_S100000_S1600000x1_S1600000_n_0_n_n_0_1_1 (invSqrtDeg d) (wrapCol d))

/-- The weighted aggregation of 128-wide node features `h` along the edges `s → d` with weights `w`. -/
def aggregate128 (h : (⟨S100000x128, .f32⟩ : BufTy).Contents (Elt F)) (s d : (⟨S1600000, .i32⟩ : BufTy).Contents (Elt F))
    (w : (⟨S1600000, .f32⟩ : BufTy).Contents (Elt F)) : (⟨S100000x128, .f32⟩ : BufTy).Contents (Elt F) :=
  Host.scatterAdd scatter_S100000x128_S1600000x1_S1600000x128_1_0_0_1
    (broadcastInDim S100000x128 ![] bcast_S_S100000x128 (constant S_ .f32 0x00000000#32)) (col d)
    (mulf (Host.gather gather_S100000x128_S1600000x1_S1600000x128_1_0_n_n_0_1_1128 h (wrapCol s))
      (broadcastInDim S1600000x128 ![0, 1] bcast_S1600000x1_S1600000x128_0_1
        (broadcastInDim S1600000x1 ![0] bcast_S1600000_S1600000x1_0 w)))

/-- The weighted aggregation of 40-wide node features `h` along the edges `s → d` with weights `w`. -/
def aggregate40 (h : (⟨S100000x40, .f32⟩ : BufTy).Contents (Elt F)) (s d : (⟨S1600000, .i32⟩ : BufTy).Contents (Elt F))
    (w : (⟨S1600000, .f32⟩ : BufTy).Contents (Elt F)) : (⟨S100000x40, .f32⟩ : BufTy).Contents (Elt F) :=
  Host.scatterAdd scatter_S100000x40_S1600000x1_S1600000x40_1_0_0_1
    (broadcastInDim S100000x40 ![] bcast_S_S100000x40 (constant S_ .f32 0x00000000#32)) (col d)
    (mulf (Host.gather gather_S100000x40_S1600000x1_S1600000x40_1_0_n_n_0_1_140 h (wrapCol s))
      (broadcastInDim S1600000x40 ![0, 1] bcast_S1600000x1_S1600000x40_0_1
        (broadcastInDim S1600000x1 ![0] bcast_S1600000_S1600000x1_0 w)))

/-- The network's output from the second layer's features: their aggregation plus the output bias on every row. -/
def output (h : (⟨S100000x40, .f32⟩ : BufTy).Contents (Elt F)) (s d : (⟨S1600000, .i32⟩ : BufTy).Contents (Elt F))
    (w : (⟨S1600000, .f32⟩ : BufTy).Contents (Elt F)) (b : (⟨S40, .f32⟩ : BufTy).Contents (Elt F)) :
    (⟨S100000x40, .f32⟩ : BufTy).Contents (Elt F) :=
  addf (aggregate40 h s d w)
    (broadcastInDim S100000x40 ![0, 1] bcast_S1x40_S100000x40_0_1 (broadcastInDim S1x40 ![1] bcast_S40_S1x40_1 b))

end Cert.KernelIdeal.Graph

end
-- ==== Proof.LibMatmulRead.lean ====
/-
  A matrix product read at an entry, for ANY contraction record of the "rows by columns" form.

  A record that contracts the left operand's second axis with the right operand's first and has no batch axis
  describes the textbook product of an `a × K` by a `K × b` array. At the ideal instance the product accumulated
  into an all-zero block has, at entry `(p, q)`, the value `Σ_k lhs[p, k] · rhs[k, q]` with `k` over `Fin K`:
  the accumulator's zero is the additive identity, and the record's contraction index set is `Fin K`.
  The record is a variable here, so one proof serves every product of this form in a program.
-/
import Idealize.ShloMosaic.Lib.ValueIdx
import Idealize.ShloMosaic.PureOps.Ideal.Laws

noncomputable section

namespace Idealize.ShloMosaic.MatmulRead

open Idealize.ShloMosaic Idealize.ShloMosaic.ValueIdx
open scoped BigOperators

variable {a K b : ℕ} (D : DotDims (⟨2, ![a, K]⟩ : Shape) (⟨2, ![K, b]⟩ : Shape) (⟨2, ![a, b]⟩ : Shape))

/-- "Rows by columns": the left operand's second axis is contracted with the right operand's first, each operand's
    other axis survives, and there is no batch axis. -/
structure RowsByCols : Prop where
  lc : D.lhsContracting = [1]
  rc : D.rhsContracting = [0]
  ln : D.lhsNonContracting = [0]
  rn : D.rhsNonContracting = [1]
  lb : D.lhsBatch = []
  rb : D.rhsBatch = []

/-- An index read at two equal positions gives equal coordinates. -/
private theorem val_congr {s : Shape} (j : s.Idx) (u v : Nat) (hu : u < s.rank) (hv : v < s.rank) (h : u = v) :
    (j ⟨u, hu⟩).val = (j ⟨v, hv⟩).val := by subst h; rfl

variable {D}

/-- The left operand is read in the result's row. -/
theorem lhsIdx_row (h : RowsByCols D) (j : (⟨2, ![a, b]⟩ : Shape).Idx) (κ : D.contr.Idx) :
    (D.lhsIdx j κ 0).val = (j 0).val := by
  have hb : (0 : Fin (⟨2, ![a, K]⟩ : Shape).rank) ∉ D.lhsBatch := by rw [h.lb]; exact List.not_mem_nil
  have hn : (0 : Fin (⟨2, ![a, K]⟩ : Shape).rank) ∈ D.lhsNonContracting := by rw [h.ln]; exact List.mem_singleton.mpr rfl
  unfold DotDims.lhsIdx
  rw [dif_neg hb, dif_pos hn]
  simp only [Fin.val_cast]
  exact val_congr j _ _ _ _ (by simp [h.lb, h.ln])

/-- The right operand is read in the result's column. -/
theorem rhsIdx_col (h : RowsByCols D) (j : (⟨2, ![a, b]⟩ : Shape).Idx) (κ : D.contr.Idx) :
    (D.rhsIdx j κ 1).val = (j 1).val := by
  have hb : (1 : Fin (⟨2, ![K, b]⟩ : Shape).rank) ∉ D.rhsBatch := by rw [h.rb]; exact List.not_mem_nil
  have hn : (1 : Fin (⟨2, ![K, b]⟩ : Shape).rank) ∈ D.rhsNonContracting := by rw [h.rn]; exact List.mem_singleton.mpr rfl
  unfold DotDims.rhsIdx
  rw [dif_neg hb, dif_pos hn]
  simp only [Fin.val_cast]
  exact val_congr j _ _ _ _ (by simp [h.lb, h.ln, h.rn])

/-- Into a zero accumulator, entry `(p, q)` of the product is `Σ_k lhs[p, k] · rhs[k, q]`. -/
theorem matmul_zero_ix2 (h : RowsByCols D) (hr : D.contr.rank = 1) (hs : D.contr.size ⟨0, by omega⟩ = K)
    (prec : Option ContractPrecision) {φ₁ φ₂ : FTy} (lhs : FVec Ideal (⟨2, ![a, K]⟩ : Shape) φ₁)
    (rhs : FVec Ideal (⟨2, ![K, b]⟩ : Shape) φ₂) (p : Fin a) (q : Fin b) :
    FloatOps.matmul D prec lhs rhs (constant (⟨2, ![a, b]⟩ : Shape) .f32 0x00000000#32) (ix2 p q)
      = ∑ k : Fin K, lhs (ix2 p k) * rhs (ix2 k q) := by
  rw [Ideal.matmul_constant_zero_apply, ← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun ax => Fin.ext (by
    match ax with
    | ⟨0, _⟩ => exact lhsIdx_row h _ _
    | ⟨1, _⟩ => exact (D.lhsIdx_val_of_single h.lc _ _).trans hk)
  have er : D.rhsIdx (ix2 p q) ((contrEquiv1 D K hr hs).symm k) = ix2 k q := funext fun ax => Fin.ext (by
    match ax with
    | ⟨0, _⟩ => exact (D.rhsIdx_val_of_single h.rc _ _).trans hk
    | ⟨1, _⟩ => exact rhsIdx_col h _ _)
  rw [el, er]

end Idealize.ShloMosaic.MatmulRead
-- ==== Proof.Layers.lean ====
/-
  The two dense layers of the network, entry by entry, on the extended reals.

  A dense layer multiplies an `a × K` array of node features by a `K × b` weight array: entry `(p, q)` of the
  result is `Σ_k x[p, k] · w[k, q]`, the sum taken over `Fin K` in its standing order. The hidden activation
  between the two layers adds a bias row to every node's aggregated features and clamps the sum below at a
  floor `z` (the zero word of the programs). Both are stated over literal extents, so that one statement serves
  a tile of rows as well as the whole array.
-/
import Idealize.ShloMosaic.Lib.ValueIdx
import Idealize.ShloMosaic.PureOps.Ideal.Laws

noncomputable section

open scoped BigOperators

namespace Cert.Gcn

open Idealize.ShloMosaic Idealize.ShloMosaic.ValueIdx

/-- The product of an `a × K` array with a `K × b` array: entry `(p, q)` is `Σ_k x[p, k] · w[k, q]`. -/
def product {a K b : ℕ} (x : (⟨2, ![a, K]⟩ : Shape).Idx → EReal) (w : (⟨2, ![K, b]⟩ : Shape).Idx → EReal) :
    (⟨2, ![a, b]⟩ : Shape).Idx → EReal :=
  fun i => ∑ k : Fin K, x (ix2 (i 0) k) * w (ix2 k (i 1))

theorem product_ix2 {a K b : ℕ} (x : (⟨2, ![a, K]⟩ : Shape).Idx → EReal) (w : (⟨2, ![K, b]⟩ : Shape).Idx → EReal)
    (p : Fin a) (q : Fin b) : product x w (ix2 p q) = ∑ k : Fin K, x (ix2 p k) * w (ix2 k q) := rfl

/-- The hidden activation: the aggregated features plus the bias row, clamped below at `z`. -/
def hidden {a b : ℕ} (z : EReal) (g : (⟨2, ![a, b]⟩ : Shape).Idx → EReal) (bias : (⟨2, ![1, b]⟩ : Shape).Idx → EReal) :
    (⟨2, ![a, b]⟩ : Shape).Idx → EReal :=
  fun i => max (g i + bias (ix2 (0 : Fin 1) (i 1))) z

theorem hidden_ix2 {a b : ℕ} (z : EReal) (g : (⟨2, ![a, b]⟩ : Shape).Idx → EReal) (bias : (⟨2, ![1, b]⟩ : Shape).Idx → EReal)
    (p : Fin a) (q : Fin b) : hidden z g bias (ix2 p q) = max (g (ix2 p q) + bias (ix2 (0 : Fin 1) q)) z := rfl

end Cert.Gcn

end
-- ==== Proof.Layer0Value.lean ====
/-
  The first pallas_call, read as a value: the array it leaves is the first dense layer of whatever arrays the
  region finds.

  The call walks the node features in 20 tiles of 5000 rows; at tile `t` its body multiplies rows
  `5000·t … 5000·t + 4999` of the features by the whole weight array (the change of float format on the way in is
  the identity on the extended reals, and the accumulator starts at zero), and the pipeline writes the product back
  to the same rows of the result. The tiles cover every row, so the result array ends as the product of the two
  arrays the region was entered with, entry by entry.
-/
import proofs.«125614_j10385230922554_1_alg».proof.Proof.Gen.KernelIdeal.Frame
import proofs.«125614_j10385230922554_1_alg».proof.Proof.LibMatmulRead
import proofs.«125614_j10385230922554_1_alg».proof.Proof.Layers
import Idealize.ShloMosaic.Lib.Pipeline.Value
import Idealize.ShloMosaic.Lib.ValueIdx

noncomputable section

open scoped BigOperators

namespace Cert.KernelIdeal.Layer0

open Cert.KernelIdeal Cert.KernelIdeal.Gen Idealize.ShloMosaic Idealize.ShloMosaic.TcCoe Idealize.SL.Sem
open Idealize.ShloMosaic.ValueIdx
open Idealize.ShloMosaic.Pipeline (Dat)
open Cert.Gcn

variable (V : (c : Dev nD) → (b : Ref sig .tc) → Buf (Elt Ideal) ((c : Thread nD τ).loc b))

theorem origin : (![0, 0] : Fin 2 → Nat) = fun _ => 0 := funext fun a => by fin_cases a <;> rfl

/-- The body's one stored value at entry `(p, q)` of a tile: row `p` of the feature tile against column `q` of
    the weights. -/
theorem tile_entry (x0 : Vec Ideal S5000x512 .f32) (x1 : Vec Ideal S512x128 .f32) (p : Fin 5000) (q : Fin 128) :
    k0_pay1 (F := Ideal) x0 x1 (ix2 p q) = ∑ k : Fin 512, x0 (ix2 p k) * x1 (ix2 k q) := by
  unfold k0_pay1
  refine (MatmulRead.matmul_zero_ix2 (D := dot_S5000x512_S512x128_S5000x128_1_0_0_1_n_n) ⟨rfl, rfl, rfl, rfl, rfl, rfl⟩
    rfl rfl none _ _ p q).trans ?_
  refine Finset.sum_congr rfl fun k _ => ?_
  rw [shapeCast_self]
  rfl

/-- A tile whose rows are rows `5000·r …` of `X`, multiplied by `W`, is those rows of the product of `X` and `W`. -/
theorem tile_is_rows (x0 : Vec Ideal S5000x512 .f32) (x1 : Vec Ideal S512x128 .f32)
    (X : S100000x512.Idx → EReal) (W : S512x128.Idx → EReal) (r : ℕ)
    (h0 : ∀ (p : Fin 5000) (k : Fin 512) (P : Fin 100000), P.val = r * 5000 + p.val → x0 (ix2 p k) = X (ix2 P k))
    (h1 : ∀ (k : Fin 512) (q : Fin 128), x1 (ix2 k q) = W (ix2 k q))
    (y : S5000x128.Idx) (i : S100000x128.Idx) (hi0 : (i 0).val = r * 5000 + (y 0).val) (hi1 : (i 1).val = (y 1).val) :
    k0_pay1 (F := Ideal) x0 x1 y = product X W i := by
  obtain ⟨p, q, rfl⟩ : ∃ (p : Fin 5000) (q : Fin 128), y = ix2 p q := ⟨y 0, y 1, eq_ix2 y⟩
  obtain ⟨P, Q, rfl⟩ : ∃ (P : Fin 100000) (Q : Fin 128), i = ix2 P Q := ⟨i 0, i 1, eq_ix2 i⟩
  rw [tile_entry, product_ix2]
  obtain rfl : q = Q := Fin.ext hi1.symm
  refine Finset.sum_congr rfl fun k _ => ?_
  rw [h0 p k P hi0, h1]

/-- The printed index maps, decided over the 20 grid points: the feature tile and the result tile move together along
    the rows, the weight block stays at the origin. -/
theorem index_facts : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0
    ∧ win0_2.index t (0 : Fin 2) ≤ 19 :=
  (by decide +kernel : ∀ t : Fin grid0.N, _)

/-- Every row tile of the result is some grid point's. -/
theorem index_onto : ∀ q0 : Fin 20, ∃ t : Fin cfg0.N, win0_2.index t = ![q0.val, 0] :=
  (by decide +kernel : ∀ q0 : Fin 20, ∃ t : Fin grid0.N, win0_2.index t = ![q0.val, 0])

/-- What grid point `t` writes back is tile `t` of the product of the arrays the region finds. -/
theorem flushed_eq (c : Dev nD) (t : Fin cfg0.N) :
    (dat0 V c).flushed 2 t
      = ((cfg0.win 2).blk t).view.read (Elt Ideal) (product (V c main_arg0) (V c main_v26)) := by
  show (cfg0.win 2).cut (grid0.coords t) ((dat0 V c).after 2 t) = _
  rw [after0_2]
  unfold out0_2
  rw [View.canon_unit_zero origin]
  simp only [View.ld_unit_zero (S := S5000x512) origin, View.ld_unit_zero (S := S512x128) origin]
  obtain ⟨e0, e1, e2, e3, e4, e5⟩ := index_facts t
  funext j
  refine tile_is_rows (iblk0 V c 0 t) (iblk0 V c 1 t) (V c main_arg0) (V c main_v26) (win0_2.index t (0 : Fin 2)) ?_ ?_ j
    (((cfg0.win 2).blk t).view.emb j) ?_ ?_
  · intro p k P hP
    show V c main_arg0 (((cfg0.win 0).blk t).view.emb (ix2 p k)) = V c main_arg0 (ix2 P k)
    refine congrArg (V c main_arg0) (funext fun a => Fin.ext ?_)
    match a with
    | ⟨0, _⟩ => show win0_0.index t (0 : Fin 2) * 5000 + 1 * p.val = P.val; omega
    | ⟨1, _⟩ => show win0_0.index t (1 : Fin 2) * 512 + 1 * k.val = k.val; omega
  · intro k q
    show V c main_v26 (((cfg0.win 1).blk t).view.emb (ix2 k q)) = V c main_v26 (ix2 k q)
    refine congrArg (V c main_v26) (funext fun a => Fin.ext ?_)
    match a with
    | ⟨0, _⟩ => show win0_1.index t (0 : Fin 2) * 512 + 1 * k.val = k.val; omega
    | ⟨1, _⟩ => show win0_1.index t (1 : Fin 2) * 128 + 1 * q.val = q.val; omega
  · show win0_2.index t (0 : Fin 2) * 5000 + 1 * (j 0).val = win0_2.index t (0 : Fin 2) * 5000 + (j 0).val; omega
  · show win0_2.index t (1 : Fin 2) * 128 + 1 * (j 1).val = (j 1).val; omega

/-- An index of the result array is in point `t`'s tile iff each coordinate is in the tile's range on its axis. -/
theorem mem_tile (t : Fin cfg0.N) (i : S100000x128.Idx) :
    i ∈ ((cfg0.win 2).blk t).view.set ↔ ∀ a : Fin 2, win0_2.index t a * S5000x128.size a ≤ (i a).val
      ∧ (i a).val < win0_2.index t a * S5000x128.size a + S5000x128.size a := by
  show i ∈ ((View.whole main_v29).slice (win0_2.rect t)).set ↔ _
  rw [View.set_slice_whole, Rect.mem_set_unit]
  exact Iff.rfl

/-- Every index of the result array is in some written-back tile: row `r` is in tile `r / 5000`. -/
theorem covered (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  obtain ⟨t, ht⟩ := index_onto ⟨(i 0).val / 5000, by omega⟩
  have q0 : win0_2.index t (0 : Fin 2) = (i 0).val / 5000 := congrFun ht 0
  have q1 : win0_2.index t (1 : Fin 2) = 0 := congrFun ht 1
  refine ⟨t, flush0_2 t, ?_⟩
  rw [mem_tile]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 128 ≤ (i 1).val ∧ (i 1).val < win0_2.index t (1 : Fin 2) * 128 + 128; omega

/-- The result array after the region: the first dense layer of the arrays the region was entered with. -/
theorem final (c : Dev nD) :
    (dat0 V c).arrAt 2 cfg0.N = product (V c main_arg0) (V c main_v26) :=
  (dat0 V c).arrAt_eq_of_cover 2 (product (V c main_arg0) (V c main_v26)) (fun t _ => flushed_eq V c t) covered

end Cert.KernelIdeal.Layer0

end
-- ==== Proof.Layer1Value.lean ====
/-
  The second pallas_call, read as a value: the array it leaves is the second dense layer applied to the hidden
  activation of whatever arrays the region finds.

  The call walks the aggregated hidden features in 20 tiles of 5000 rows; at tile `t` its body adds the one bias row
  to every row of the tile, clamps the sum below at zero, and multiplies the result by the whole second weight array
  (the change of float format on the way in is the identity on the extended reals, the accumulator starts at zero);
  the pipeline writes the product back to rows `5000·t … 5000·t + 4999` of the result. The tiles cover every row, so
  the result array ends as the product of the hidden activation with the weights, entry by entry.
-/
import proofs.«125614_j10385230922554_1_alg».proof.Proof.Gen.KernelIdeal.Frame
import proofs.«125614_j10385230922554_1_alg».proof.Proof.LibMatmulRead
import proofs.«125614_j10385230922554_1_alg».proof.Proof.Layers
import Idealize.ShloMosaic.Lib.Pipeline.Value
import Idealize.ShloMosaic.Lib.ValueIdx
import Idealize.ShloMosaic.Lib.ValueLayout

noncomputable section

open scoped BigOperators

namespace Cert.KernelIdeal.Layer1

open Cert.KernelIdeal Cert.KernelIdeal.Gen Idealize.ShloMosaic Idealize.ShloMosaic.TcCoe Idealize.SL.Sem
open Idealize.ShloMosaic.ValueIdx
open Idealize.ShloMosaic.Pipeline (Dat)
open Cert.Gcn

variable (V : (c : Dev nD) → (b : Ref sig .tc) → Buf (Elt Ideal) ((c : Thread nD τ).loc b))

theorem origin : (![0, 0] : Fin 2 → Nat) = fun _ => 0 := funext fun a => by fin_cases a <;> rfl

/-- The floor of the clamp: the zero word, as the extended real it denotes (never evaluated). -/
abbrev floor : EReal := Ideal.ofBits .f32 0x00000000#32

/-- The body's one stored value at entry `(p, q)` of a tile: row `p` of the tile's hidden activation against
    column `q` of the weights. -/
theorem tile_entry (x0 : Vec Ideal S5000x128 .f32) (x1 : Vec Ideal S1x128 .f32) (x2 : Vec Ideal S128x40 .f32)
    (p : Fin 5000) (q : Fin 40) :
    k1_pay1 (F := Ideal) x0 x1 x2 (ix2 p q) = ∑ k : Fin 128, hidden floor x0 x1 (ix2 p k) * x2 (ix2 k q) := by
  unfold k1_pay1
  refine (MatmulRead.matmul_zero_ix2 (D := dot_S5000x128_S128x40_S5000x40_1_0_0_1_n_n) ⟨rfl, rfl, rfl, rfl, rfl, rfl⟩
    rfl rfl none _ _ p q).trans ?_
  refine Finset.sum_congr rfl fun k _ => ?_
  rw [hidden_ix2, shapeCast_self, shapeCast_self, shapeCast_self]
  show max (x0 (ix2 p k) + broadcastTo S5000x128 x1 broadcasts_S1x128_S5000x128 (ix2 p k)) floor * x2 (ix2 k q) = _
  rw [broadcastTo_1b_ab_apply]

/-- A tile whose rows are rows `5000·r …` of `G`, put through the clamp with bias row `B` and multiplied by `W`, is
    those rows of the product of the whole hidden activation with `W`. -/
theorem tile_is_rows (x0 : Vec Ideal S5000x128 .f32) (x1 : Vec Ideal S1x128 .f32) (x2 : Vec Ideal S128x40 .f32)
    (G : S100000x128.Idx → EReal) (B : S1x128.Idx → EReal) (W : S128x40.Idx → EReal) (r : ℕ)
    (h0 : ∀ (p : Fin 5000) (k : Fin 128) (P : Fin 100000), P.val = r * 5000 + p.val → x0 (ix2 p k) = G (ix2 P k))
    (h1 : ∀ (k : Fin 128), x1 (ix2 (0 : Fin 1) k) = B (ix2 (0 : Fin 1) k))
    (h2 : ∀ (k : Fin 128) (q : Fin 40), x2 (ix2 k q) = W (ix2 k q))
    (y : S5000x40.Idx) (i : S100000x40.Idx) (hi0 : (i 0).val = r * 5000 + (y 0).val) (hi1 : (i 1).val = (y 1).val) :
    k1_pay1 (F := Ideal) x0 x1 x2 y = product (hidden floor G B) W i := by
  obtain ⟨p, q, rfl⟩ : ∃ (p : Fin 5000) (q : Fin 40), y = ix2 p q := ⟨y 0, y 1, eq_ix2 y⟩
  obtain ⟨P, Q, rfl⟩ : ∃ (P : Fin 100000) (Q : Fin 40), i = ix2 P Q := ⟨i 0, i 1, eq_ix2 i⟩
  rw [tile_entry, product_ix2]
  obtain rfl : q = Q := Fin.ext hi1.symm
  refine Finset.sum_congr rfl fun k _ => ?_
  rw [hidden_ix2, hidden_ix2, h0 p k P hi0, h1, h2]

/-- The printed index maps, decided over the 20 grid points: the feature tile and the result tile move together along
    the rows, the bias row and the weight block stay at the origin. -/
theorem index_facts : ∀ t : Fin cfg1.N, win1_0.index t (0 : Fin 2) = win1_3.index t (0 : Fin 2)
    ∧ win1_0.index t (1 : Fin 2) = 0
    ∧ win1_1.index t (0 : Fin 2) = 0
    ∧ win1_1.index t (1 : Fin 2) = 0
    ∧ win1_2.index t (0 : Fin 2) = 0
    ∧ win1_2.index t (1 : Fin 2) = 0
    ∧ win1_3.index t (1 : Fin 2) = 0
    ∧ win1_3.index t (0 : Fin 2) ≤ 19 :=
  (by decide +kernel : ∀ t : Fin grid1.N, _)

/-- Every row tile of the result is some grid point's. -/
theorem index_onto : ∀ q0 : Fin 20, ∃ t : Fin cfg1.N, win1_3.index t = ![q0.val, 0] :=
  (by decide +kernel : ∀ q0 : Fin 20, ∃ t : Fin grid1.N, win1_3.index t = ![q0.val, 0])

/-- What grid point `t` writes back is tile `t` of the second layer of the arrays the region finds. -/
theorem flushed_eq (c : Dev nD) (t : Fin cfg1.N) :
    (dat1 V c).flushed 3 t
      = ((cfg1.win 3).blk t).view.read (Elt Ideal)
          (product (hidden floor (V c main_v42) (V c main_v28)) (V c main_v27)) := by
  show (cfg1.win 3).cut (grid1.coords t) ((dat1 V c).after 3 t) = _
  rw [after1_3]
  unfold out1_3
  rw [View.canon_unit_zero origin]
  simp only [View.ld_unit_zero (S := S5000x128) origin, View.ld_unit_zero (S := S1x128) origin,
    View.ld_unit_zero (S := S128x40) origin]
  obtain ⟨e0, e1, e2, e3, e4, e5, e6, e7⟩ := index_facts t
  funext j
  refine tile_is_rows (iblk1 V c 0 t) (iblk1 V c 1 t) (iblk1 V c 2 t) (V c main_v42) (V c main_v28) (V c main_v27)
    (win1_3.index t (0 : Fin 2)) ?_ ?_ ?_ j (((cfg1.win 3).blk t).view.emb j) ?_ ?_
  · intro p k P hP
    show V c main_v42 (((cfg1.win 0).blk t).view.emb (ix2 p k)) = V c main_v42 (ix2 P k)
    refine congrArg (V c main_v42) (funext fun a => Fin.ext ?_)
    match a with
    | ⟨0, _⟩ => show win1_0.index t (0 : Fin 2) * 5000 + 1 * p.val = P.val; omega
    | ⟨1, _⟩ => show win1_0.index t (1 : Fin 2) * 128 + 1 * k.val = k.val; omega
  · intro k
    show V c main_v28 (((cfg1.win 1).blk t).view.emb (ix2 (0 : Fin 1) k)) = V c main_v28 (ix2 (0 : Fin 1) k)
    refine congrArg (V c main_v28) (funext fun a => Fin.ext ?_)
    match a with
    | ⟨0, _⟩ => show win1_1.index t (0 : Fin 2) * 1 + 1 * 0 = 0; omega
    | ⟨1, _⟩ => show win1_1.index t (1 : Fin 2) * 128 + 1 * k.val = k.val; omega
  · intro k q
    show V c main_v27 (((cfg1.win 2).blk t).view.emb (ix2 k q)) = V c main_v27 (ix2 k q)
    refine congrArg (V c main_v27) (funext fun a => Fin.ext ?_)
    match a with
    | ⟨0, _⟩ => show win1_2.index t (0 : Fin 2) * 128 + 1 * k.val = k.val; omega
    | ⟨1, _⟩ => show win1_2.index t (1 : Fin 2) * 40 + 1 * q.val = q.val; omega
  · show win1_3.index t (0 : Fin 2) * 5000 + 1 * (j 0).val = win1_3.index t (0 : Fin 2) * 5000 + (j 0).val; omega
  · show win1_3.index t (1 : Fin 2) * 40 + 1 * (j 1).val = (j 1).val; omega

/-- An index of the result array is in point `t`'s tile iff each coordinate is in the tile's range on its axis. -/
theorem mem_tile (t : Fin cfg1.N) (i : S100000x40.Idx) :
    i ∈ ((cfg1.win 3).blk t).view.set ↔ ∀ a : Fin 2, win1_3.index t a * S5000x40.size a ≤ (i a).val
      ∧ (i a).val < win1_3.index t a * S5000x40.size a + S5000x40.size a := by
  show i ∈ ((View.whole main_v43).slice (win1_3.rect t)).set ↔ _
  rw [View.set_slice_whole, Rect.mem_set_unit]
  exact Iff.rfl

/-- Every index of the result array is in some written-back tile: row `r` is in tile `r / 5000`. -/
theorem covered (i : S100000x40.Idx) :
    ∃ t : Fin cfg1.N, (cfg1.win 3).flush t = true ∧ i ∈ ((cfg1.win 3).blk t).view.set := by
  have hi0 : (i 0).val < 100000 := (i 0).isLt
  have hi1 : (i 1).val < 40 := (i 1).isLt
  obtain ⟨t, ht⟩ := index_onto ⟨(i 0).val / 5000, by omega⟩
  have q0 : win1_3.index t (0 : Fin 2) = (i 0).val / 5000 := congrFun ht 0
  have q1 : win1_3.index t (1 : Fin 2) = 0 := congrFun ht 1
  refine ⟨t, flush1_3 t, ?_⟩
  rw [mem_tile]
  intro a
  match a with
  | ⟨0, _⟩ => show win1_3.index t (0 : Fin 2) * 5000 ≤ (i 0).val ∧ (i 0).val < win1_3.index t (0 : Fin 2) * 5000 + 5000; omega
  | ⟨1, _⟩ => show win1_3.index t (1 : Fin 2) * 40 ≤ (i 1).val ∧ (i 1).val < win1_3.index t (1 : Fin 2) * 40 + 40; omega

/-- The result array after the region: the second dense layer of the hidden activation of the arrays the region was
    entered with. -/
theorem final (c : Dev nD) :
    (dat1 V c).arrAt 3 cfg1.N = product (hidden floor (V c main_v42) (V c main_v28)) (V c main_v27) :=
  (dat1 V c).arrAt_eq_of_cover 3 (product (hidden floor (V c main_v42) (V c main_v28)) (V c main_v27))
    (fun t _ => flushed_eq V c t) covered

end Cert.KernelIdeal.Layer1

end
-- ==== Proof.KernelValue.lean ====
/-
  The kernel program's result as one term of its argument arrays.

  The run ends with the result buffer at the fold of @main's five segments. Reading that fold backwards: the
  last stretch of host operations is the second aggregation plus the output bias, applied to what the second
  pallas_call left; that call left the second dense layer of the hidden activation of what the middle stretch left
  (the first aggregation) and of the reshaped bias row and the transposed weights; the middle stretch aggregated what
  the first pallas_call left, the first dense layer of the node features and the transposed weights; and the edge
  rows and the edge weights, computed once by the first stretch, are read unchanged by every later one.
-/
import proofs.«125614_j10385230922554_1_alg».proof.Proof.Gen.KernelIdeal.Frame
import proofs.«125614_j10385230922554_1_alg».proof.Proof.KernelGraph
import proofs.«125614_j10385230922554_1_alg».proof.Proof.Layer0Value
import proofs.«125614_j10385230922554_1_alg».proof.Proof.Layer1Value
import Idealize.ShloMosaic.Lib.StableHlo.Run

set_option maxRecDepth 16384

noncomputable section

namespace Cert.KernelIdeal.Result

open Cert.KernelIdeal Cert.KernelIdeal.Gen Cert.KernelIdeal.Graph Cert.Gcn
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-! ## After the first stretch: the edge rows, the edge weights, the transposed weights, the bias row -/

theorem first_arg0 : W1 m ρ c (Proc.devRef .tc main_arg0) = m ((c : Thread nD τ).loc main_arg0) := by
  show StableHlo.after hostOps0 (W0 m ρ c) (Proc.devRef .tc main_arg0) = _
  after_results_simp <;> rfl

theorem first_arg5 : W1 m ρ c (Proc.devRef .tc main_arg5) = m ((c : Thread nD τ).loc main_arg5) := by
  show StableHlo.after hostOps0 (W0 m ρ c) (Proc.devRef .tc main_arg5) = _
  after_results_simp <;> rfl

theorem first_src : W1 m ρ c (Proc.devRef .tc main_v1) = srcRow (m ((c : Thread nD τ).loc main_arg1)) := by
  show StableHlo.after hostOps0 (W0 m ρ c) (Proc.devRef .tc main_v1) = _
  after_results_simp <;> rfl

theorem first_dst : W1 m ρ c (Proc.devRef .tc main_v3) = dstRow (m ((c : Thread nD τ).loc main_arg1)) := by
  show StableHlo.after hostOps0 (W0 m ρ c) (Proc.devRef .tc main_v3) = _
  after_results_simp <;> rfl

theorem first_weight : W1 m ρ c (Proc.devRef .tc main_v25)
    = weight (srcRow (m ((c : Thread nD τ).loc main_arg1))) (dstRow (m ((c : Thread nD τ).loc main_arg1))) := by
  show StableHlo.after hostOps0 (W0 m ρ c) (Proc.devRef .tc main_v25) = _
  after_results_simp <;> rfl

theorem first_w0t : W1 m ρ c (Proc.devRef .tc main_v26)
    = transpose S512x128 [1, 0] (m ((c : Thread nD τ).loc main_arg2)) transposes_S128x512_S512x128_1_0 := by
  show StableHlo.after hostOps0 (W0 m ρ c) (Proc.devRef .tc main_v26) = _
  after_results_simp <;> rfl

theorem first_w1t : W1 m ρ c (Proc.devRef .tc main_v27)
    = transpose S128x40 [1, 0] (m ((c : Thread nD τ).loc main_arg4)) transposes_S40x128_S128x40_1_0 := by
  show StableHlo.after hostOps0 (W0 m ρ c) (Proc.devRef .tc main_v27) = _
  after_results_simp <;> rfl

theorem first_bias : W1 m ρ c (Proc.devRef .tc main_v28)
    = shapeCast S1x128 (m ((c : Thread nD τ).loc main_arg3)) shapeCasts_S128_S1x128 := by
  show StableHlo.after hostOps0 (W0 m ρ c) (Proc.devRef .tc main_v28) = _
  after_results_simp <;> rfl

/-! ## After the first pallas_call: the first dense layer -/

theorem layer0 : W2 m ρ c (Proc.devRef .tc main_v29)
    = product (m ((c : Thread nD τ).loc main_arg0))
        (transpose S512x128 [1, 0] (m ((c : Thread nD τ).loc main_arg2)) transposes_S128x512_S512x128_1_0) := by
  refine (W2_arr m ρ c 2).trans ((Layer0.final (V1 m ρ) c).trans ?_)
  rw [show V1 m ρ c main_arg0 = _ from first_arg0 m ρ c, show V1 m ρ c main_v26 = _ from first_w0t m ρ c]

/-! ## After the middle stretch: the first aggregation -/

theorem middle_agg : W3 m ρ c (Proc.devRef .tc main_v42)
    = aggregate128 (W2 m ρ c (Proc.devRef .tc main_v29)) (W2 m ρ c (Proc.devRef .tc main_v1))
        (W2 m ρ c (Proc.devRef .tc main_v3)) (W2 m ρ c (Proc.devRef .tc main_v25)) := by
  show StableHlo.after hostOps1 (W2 m ρ c) (Proc.devRef .tc main_v42) = _
  after_results_simp <;> rfl

/-- A buffer the middle stretch does not write and the first pallas_call does not stage holds after both what the
    first stretch left in it. -/
theorem middle_keeps (b : Ref sig .tc) (h0 : ∀ w, Pipeline.arrRef spec0 w ≠ b)
    (h1 : StableHlo.after hostOps1 (W2 m ρ c) (Proc.devRef .tc b) = W2 m ρ c (Proc.devRef .tc b)) :
    W3 m ρ c (Proc.devRef .tc b) = W1 m ρ c (Proc.devRef .tc b) :=
  h1.trans (W2_of_ne m ρ c b h0)

theorem middle_src : W3 m ρ c (Proc.devRef .tc main_v1) = W1 m ρ c (Proc.devRef .tc main_v1) :=
  middle_keeps m ρ c main_v1 (by decide) (by after_results_simp <;> rfl)
theorem middle_dst : W3 m ρ c (Proc.devRef .tc main_v3) = W1 m ρ c (Proc.devRef .tc main_v3) :=
  middle_keeps m ρ c main_v3 (by decide) (by after_results_simp <;> rfl)
theorem middle_weight : W3 m ρ c (Proc.devRef .tc main_v25) = W1 m ρ c (Proc.devRef .tc main_v25) :=
  middle_keeps m ρ c main_v25 (by decide) (by after_results_simp <;> rfl)
theorem middle_w1t : W3 m ρ c (Proc.devRef .tc main_v27) = W1 m ρ c (Proc.devRef .tc main_v27) :=
  middle_keeps m ρ c main_v27 (by decide) (by after_results_simp <;> rfl)
theorem middle_bias : W3 m ρ c (Proc.devRef .tc main_v28) = W1 m ρ c (Proc.devRef .tc main_v28) :=
  middle_keeps m ρ c main_v28 (by decide) (by after_results_simp <;> rfl)
theorem middle_arg5 : W3 m ρ c (Proc.devRef .tc main_arg5) = W1 m ρ c (Proc.devRef .tc main_arg5) :=
  middle_keeps m ρ c main_arg5 (by decide) (by after_results_simp <;> rfl)

/-! ## After the second pallas_call: the second dense layer of the hidden activation -/

theorem layer1 : W4 m ρ c (Proc.devRef .tc main_v43)
    = product (hidden Layer1.floor (W3 m ρ c (Proc.devRef .tc main_v42)) (W3 m ρ c (Proc.devRef .tc main_v28)))
        (W3 m ρ c (Proc.devRef .tc main_v27)) :=
  (W4_arr m ρ c 3).trans (Layer1.final (V3 m ρ) c)

/-! ## After the last stretch: the second aggregation and the output bias -/

theorem last_out : W5 m ρ c (Proc.devRef .tc main_v59)
    = output (W4 m ρ c (Proc.devRef .tc main_v43)) (W4 m ρ c (Proc.devRef .tc main_v1))
        (W4 m ρ c (Proc.devRef .tc main_v3)) (W4 m ρ c (Proc.devRef .tc main_v25)) (W4 m ρ c (Proc.devRef .tc main_arg5)) := by
  show StableHlo.after hostOps2 (W4 m ρ c) (Proc.devRef .tc main_v59) = _
  after_results_simp <;> rfl

/-! ## The result -/

/-- The kernel program's result: the output layer over the second dense layer of the hidden activation of the first
    aggregation of the first dense layer, every graph quantity computed from the edge list once. -/
theorem result_eq : W5 m ρ c (Proc.devRef .tc main_v59)
    = output
        (product
          (hidden Layer1.floor
            (aggregate128
              (product (m ((c : Thread nD τ).loc main_arg0))
                (transpose S512x128 [1, 0] (m ((c : Thread nD τ).loc main_arg2)) transposes_S128x512_S512x128_1_0))
              (srcRow (m ((c : Thread nD τ).loc main_arg1))) (dstRow (m ((c : Thread nD τ).loc main_arg1)))
              (weight (srcRow (m ((c : Thread nD τ).loc main_arg1))) (dstRow (m ((c : Thread nD τ).loc main_arg1)))))
            (shapeCast S1x128 (m ((c : Thread nD τ).loc main_arg3)) shapeCasts_S128_S1x128))
          (transpose S128x40 [1, 0] (m ((c : Thread nD τ).loc main_arg4)) transposes_S40x128_S128x40_1_0))
        (srcRow (m ((c : Thread nD τ).loc main_arg1))) (dstRow (m ((c : Thread nD τ).loc main_arg1)))
        (weight (srcRow (m ((c : Thread nD τ).loc main_arg1))) (dstRow (m ((c : Thread nD τ).loc main_arg1))))
        (m ((c : Thread nD τ).loc main_arg5)) := by
  rw [last_out, layer1, middle_agg, layer0,
    W4_of_ne m ρ c main_v1 (by decide), W4_of_ne m ρ c main_v3 (by decide), W4_of_ne m ρ c main_v25 (by decide),
    W4_of_ne m ρ c main_arg5 (by decide),
    W2_of_ne m ρ c main_v1 (by decide), W2_of_ne m ρ c main_v3 (by decide), W2_of_ne m ρ c main_v25 (by decide),
    middle_src, middle_dst, middle_weight, middle_w1t, middle_bias, middle_arg5,
    first_src, first_dst, first_weight, first_w1t, first_bias, first_arg5]

end Cert.KernelIdeal.Result

end
-- ==== Proof.ReferenceGraph.lean ====
/-
  The graph side of the network as functions of the edge list, over the vocabulary of the reference program.

  The edge list is a `2 × 1600000` integer array: row 0 holds each edge's source node, row 1 its destination.
  A node's degree is the number of edges that end at it (a scatter-add of ones over the destinations), clamped
  below at one; an edge's weight is `1/√deg(source) · 1/√deg(destination)` (two gathers of the reciprocal square
  roots, negative node indices wrapped by the node count). An aggregation gathers each edge's source row of a
  feature array, scales it by the edge's weight, and scatter-adds it into the destination's row of a zero array.
  These are the host operations both programs apply; they are named here so that the certificate carries them as
  whole functions and never opens them.
-/
import proofs.«125614_j10385230922554_1_alg».proof.ReferenceIdeal
import proofs.«125614_j10385230922554_1_alg».proof.Proof.Gen.ReferenceIdeal

noncomputable section

namespace Cert.ReferenceIdeal.Graph

open Cert.ReferenceIdeal Cert.ReferenceIdeal.Gen Idealize.ShloMosaic

variable {F : FTy → Type} [FloatOps F]

/-- Each edge's source node: row 0 of the edge list. -/
def srcRow (e : (⟨S2x1600000, .i32⟩ : BufTy).Contents (Elt F)) : (⟨S1600000, .i32⟩ : BufTy).Contents (Elt F) :=
  shapeCast S1600000 (extractStridedSlice S1x1600000 ![0, 0] e slices_S2x1600000_S1x1600000_0_0) shapeCasts_S1x1600000_S1600000

/-- Each edge's destination node: row 1 of the edge list. -/
def dstRow (e : (⟨S2x1600000, .i32⟩ : BufTy).Contents (Elt F)) : (⟨S1600000, .i32⟩ : BufTy).Contents (Elt F) :=
  shapeCast S1600000 (extractStridedSlice S1x1600000 ![1, 0] e slices_S2x1600000_S1x1600000_1_0) shapeCasts_S1x1600000_S1600000

/-- A vector of node indices as the index column of a scatter. -/
def col (r : (⟨S1600000, .i32⟩ : BufTy).Contents (Elt F)) : (⟨S1600000x1, .i32⟩ : BufTy).Contents (Elt F) :=
  broadcastInDim S1600000x1 ![0] bcast_S1600000_S1600000x1_0 r

/-- A vector of node indices as the index column of a gather: a negative index is wrapped by the node count. -/
def wrapCol (r : (⟨S1600000, .i32⟩ : BufTy).Contents (Elt F)) : (⟨S1600000x1, .i32⟩ : BufTy).Contents (Elt F) :=
  broadcastInDim S1600000x1 ![0] bcast_S1600000_S1600000x1_0
    (select (cmpi .slt r (broadcastInDim S1600000 ![] bcast_S_S1600000 (constantI S_ 32 0#32)))
      (addi r (broadcastInDim S1600000 ![] bcast_S_S1600000 (constantI S_ 32 100000#32))) r)

/-- `1/√max(deg, 1)` per node, the degree counted over the destinations `d`. -/
def invSqrtDeg (d : (⟨S1600000, .i32⟩ : BufTy).Contents (Elt F)) : (⟨S100000, .f32⟩ : BufTy).Contents (Elt F) :=
  Host.rsqrt (maximumf
    (Host.scatterAdd scatter_S100000_S1600000x1_S1600000_n_0_0_1
      (broadcastInDim S100000 ![] bcast_S_S100000 (constant S_ .f32 0x00000000#32)) (col d)
      (broadcastInDim S1600000 ![] bcast_S_S1600000 (constant S_ .f32 0x3F800000#32)))
    (broadcastInDim S100000 ![] bcast_S_S100000 (constant S_ .f32 0x3F800000#32)))

/-- The weight of each edge: the product of its two end nodes' reciprocal square-root degrees. -/
def weight (s d : (⟨S1600000, .i32⟩ : BufTy).Contents (Elt F)) : (⟨S1600000, .f32⟩ : BufTy).Contents (Elt F) :=
  mulf (Host.gather gather_S100000_S1600000x1_S1600000_n_0_n_n_0_1_1 (invSqrtDeg d) (wrapCol s))
    (Host.gather gather_S100000_S1600000x1_S1600000_n_0_n_n_0_1_1 (invSqrtDeg d) (wrapCol d))

/-- The weighted aggregation of 128-wide node features `h` along the edges `s → d` with weights `w`. -/
def aggregate128 (h : (⟨S100000x128, .f32⟩ : BufTy).Contents (Elt F)) (s d : (⟨S1600000, .i32⟩ : BufTy).Contents (Elt F))
    (w : (⟨S1600000, .f32⟩ : BufTy).Contents (Elt F)) : (⟨S100000x128, .f32⟩ : BufTy).Contents (Elt F) :=
  Host.scatterAdd scatter_S100000x128_S1600000x1_S1600000x128_1_0_0_1
    (broadcastInDim S100000x128 ![] bcast_S_S100000x128 (constant S_ .f32 0x00000000#32)) (col d)
    (mulf (Host.gather gather_S100000x128_S1600000x1_S1600000x128_1_0_n_n_0_1_1128 h (wrapCol s))
      (broadcastInDim S1600000x128 ![0, 1] bcast_S1600000x1_S1600000x128_0_1
        (broadcastInDim S1600000x1 ![0] bcast_S1600000_S1600000x1_0 w)))

/-- The weighted aggregation of 40-wide node features `h` along the edges `s → d` with weights `w`. -/
def aggregate40 (h : (⟨S100000x40, .f32⟩ : BufTy).Contents (Elt F)) (s d : (⟨S1600000, .i32⟩ : BufTy).Contents (Elt F))
    (w : (⟨S1600000, .f32⟩ : BufTy).Contents (Elt F)) : (⟨S100000x40, .f32⟩ : BufTy).Contents (Elt F) :=
  Host.scatterAdd scatter_S100000x40_S1600000x1_S1600000x40_1_0_0_1
    (broadcastInDim S100000x40 ![] bcast_S_S100000x40 (constant S_ .f32 0x00000000#32)) (col d)
    (mulf (Host.gather gather_S100000x40_S1600000x1_S1600000x40_1_0_n_n_0_1_140 h (wrapCol s))
      (broadcastInDim S1600000x40 ![0, 1] bcast_S1600000x1_S1600000x40_0_1
        (broadcastInDim S1600000x1 ![0] bcast_S1600000_S1600000x1_0 w)))

/-- The network's output from the second layer's features: their aggregation plus the output bias on every row. -/
def output (h : (⟨S100000x40, .f32⟩ : BufTy).Contents (Elt F)) (s d : (⟨S1600000, .i32⟩ : BufTy).Contents (Elt F))
    (w : (⟨S1600000, .f32⟩ : BufTy).Contents (Elt F)) (b : (⟨S40, .f32⟩ : BufTy).Contents (Elt F)) :
    (⟨S100000x40, .f32⟩ : BufTy).Contents (Elt F) :=
  addf (aggregate40 h s d w)
    (broadcastInDim S100000x40 ![0, 1] bcast_S1x40_S100000x40_0_1 (broadcastInDim S1x40 ![1] bcast_S40_S1x40_1 b))

end Cert.ReferenceIdeal.Graph

end
-- ==== Proof.LibDotRead.lean ====
/-
  The host's matrix product read at an entry, for ANY contraction record of the "rows by columns" form.

  The host's product of an `a × K` by a `K × b` array has no accumulator; at the ideal instance it is the
  accumulating product started from the all-zero block, so its entry `(p, q)` is `Σ_k lhs[p, k] · rhs[k, q]`
  with `k` over `Fin K`. The record is a variable, so one proof serves every host product of this form.
-/
import Idealize.ShloMosaic.Lib.KernelVsHost
import proofs.«125614_j10385230922554_1_alg».proof.Proof.LibMatmulRead

noncomputable section

namespace Idealize.ShloMosaic.MatmulRead

open Idealize.ShloMosaic Idealize.ShloMosaic.ValueIdx
open scoped BigOperators

variable {a K b : ℕ} {D : DotDims (⟨2, ![a, K]⟩ : Shape) (⟨2, ![K, b]⟩ : Shape) (⟨2, ![a, b]⟩ : Shape)}

/-- Entry `(p, q)` of the host's product is `Σ_k lhs[p, k] · rhs[k, q]`. -/
theorem hostDot_ix2 (h : RowsByCols D) (hr : D.contr.rank = 1) (hs : D.contr.size ⟨0, by omega⟩ = K)
    (prec : Option ContractPrecision) {φ₁ φ₂ : FTy} (lhs : FVec Ideal (⟨2, ![a, K]⟩ : Shape) φ₁)
    (rhs : FVec Ideal (⟨2, ![K, b]⟩ : Shape) φ₂) (p : Fin a) (q : Fin b) :
    Host.dotGeneral D prec lhs rhs (ix2 p q) = ∑ k : Fin K, lhs (ix2 p k) * rhs (ix2 k q) := by
  rw [← matmul_zero_eq_dotGeneral]
  exact matmul_zero_ix2 h hr hs prec lhs rhs p q

end Idealize.ShloMosaic.MatmulRead
-- ==== Proof.ReferenceValue.lean ====
/-
  The reference program's result as the same layers.

  The reference's run ends with its result at one long term of the arguments. Folded by the named graph functions
  it reads: the output layer over the host's second product of the clamped, biased first aggregation of the host's
  first product. On the extended reals each host product is the dense layer entry by entry (a sum over the contracted
  axis in its standing order), and the bias broadcast over the rows followed by the maximum with a zero array is the
  hidden activation, the bias vector read as a one-row array.
-/
import proofs.«125614_j10385230922554_1_alg».proof.Proof.Gen.ReferenceIdeal.Run
import proofs.«125614_j10385230922554_1_alg».proof.Proof.ReferenceGraph
import proofs.«125614_j10385230922554_1_alg».proof.Proof.LibDotRead
import proofs.«125614_j10385230922554_1_alg».proof.Proof.Layers
import Idealize.ShloMosaic.Lib.Pipeline.Value
import Idealize.ShloMosaic.Lib.ValueIdx
import Idealize.ShloMosaic.Lib.ValueLayout

set_option maxRecDepth 16384

noncomputable section

open scoped BigOperators

namespace Cert.ReferenceIdeal.Result

open Cert.ReferenceIdeal Cert.ReferenceIdeal.Gen Cert.ReferenceIdeal.Value Cert.ReferenceIdeal.Graph Cert.Gcn
open Idealize.ShloMosaic Idealize.ShloMosaic.TcCoe Idealize.SL.Sem Idealize.ShloMosaic.ValueIdx

/-- The host's first product is the first dense layer. -/
theorem dot0_eq (x : FVec Ideal S100000x512 .f32) (w : FVec Ideal S512x128 .f32) :
    Host.dotGeneral dot_S100000x512_S512x128_S100000x128_1_0_0_1_n_n none x w = product x w := by
  funext i
  obtain ⟨p, q, rfl⟩ : ∃ (p : Fin 100000) (q : Fin 128), i = ix2 p q := ⟨i 0, i 1, eq_ix2 i⟩
  exact MatmulRead.hostDot_ix2 ⟨rfl, rfl, rfl, rfl, rfl, rfl⟩ rfl rfl none x w p q

/-- The host's second product is the second dense layer. -/
theorem dot1_eq (x : FVec Ideal S100000x128 .f32) (w : FVec Ideal S128x40 .f32) :
    Host.dotGeneral dot_S100000x128_S128x40_S100000x40_1_0_0_1_n_n none x w = product x w := by
  funext i
  obtain ⟨p, q, rfl⟩ : ∃ (p : Fin 100000) (q : Fin 40), i = ix2 p q := ⟨i 0, i 1, eq_ix2 i⟩
  exact MatmulRead.hostDot_ix2 ⟨rfl, rfl, rfl, rfl, rfl, rfl⟩ rfl rfl none x w p q

/-- The bias broadcast over the rows, added, and clamped by the maximum with a zero array, is the hidden
    activation with the bias vector read as a one-row array (whatever the witness of that reading). -/
theorem hidden_eq (g : FVec Ideal S100000x128 .f32) (b : FVec Ideal S128 .f32) (hc : S128.ShapeCasts S1x128) :
    maximumf (addf g (broadcastInDim S100000x128 ![0, 1] bcast_S1x128_S100000x128_0_1
        (broadcastInDim S1x128 ![1] bcast_S128_S1x128_1 b)))
      (broadcastInDim S100000x128 ![] bcast_S_S100000x128 (constant (F := Ideal) S_ .f32 0x00000000#32))
    = hidden (Ideal.ofBits .f32 0x00000000#32) g (shapeCast S1x128 b hc) := by
  funext i
  obtain ⟨p, q, rfl⟩ : ∃ (p : Fin 100000) (q : Fin 128), i = ix2 p q := ⟨i 0, i 1, eq_ix2 i⟩
  rw [hidden_ix2, shapeCast_a_1a_apply]
  have e1 : broadcastInDim S100000x128 ![0, 1] bcast_S1x128_S100000x128_0_1
      (broadcastInDim S1x128 ![1] bcast_S128_S1x128_1 b) (ix2 p q) = b (ix1 q) := by
    refine (broadcastInDim_apply _ bcast_S1x128_S100000x128_0_1 _ (ix2 p q) (ix2 (0 : Fin 1) q) (fun a => match a with
      | ⟨0, _⟩ => by show 0 = if (1 : Nat) = 1 then 0 else p.val; rw [if_pos rfl]
      | ⟨1, _⟩ => by show q.val = if (128 : Nat) = 1 then 0 else q.val; rw [if_neg (by decide)])).trans ?_
    exact broadcastInDim_apply _ bcast_S128_S1x128_1 b (ix2 (0 : Fin 1) q) (ix1 q) (fun a => match a with
      | ⟨0, _⟩ => by show q.val = if (128 : Nat) = 1 then 0 else q.val; rw [if_neg (by decide)])
  have e2 : broadcastInDim S100000x128 ![] bcast_S_S100000x128 (constant (F := Ideal) S_ .f32 0x00000000#32) (ix2 p q)
      = Ideal.ofBits .f32 0x00000000#32 :=
    broadcastInDim_apply _ bcast_S_S100000x128 _ (ix2 p q) ix0 (fun a => a.elim0)
  show max (g (ix2 p q) + _) _ = _
  rw [e1, e2]

variable (m : (ℓ : Loc nD τ sig) → Buf (Elt Ideal) ℓ) (c : Dev nD)

/-- The run's result term, folded by the named graph functions. -/
theorem res_folded : res_main_v88 (F := Ideal) m c
    = output
        (Host.dotGeneral (φ₁ := .f32) (φ₂ := .f32) dot_S100000x128_S128x40_S100000x40_1_0_0_1_n_n none
          (maximumf
            (addf
              (aggregate128
                (Host.dotGeneral (φ₁ := .f32) (φ₂ := .f32) dot_S100000x512_S512x128_S100000x128_1_0_0_1_n_n none (m ((c.tc : Thread nD τ).loc main_arg0))
                  (transpose S512x128 [1, 0] (m ((c.tc : Thread nD τ).loc main_arg2)) transposes_S128x512_S512x128_1_0))
                (srcRow (m ((c.tc : Thread nD τ).loc main_arg1))) (dstRow (m ((c.tc : Thread nD τ).loc main_arg1)))
                (weight (srcRow (m ((c.tc : Thread nD τ).loc main_arg1))) (dstRow (m ((c.tc : Thread nD τ).loc main_arg1)))))
              (broadcastInDim S100000x128 ![0, 1] bcast_S1x128_S100000x128_0_1
                (broadcastInDim S1x128 ![1] bcast_S128_S1x128_1 (m ((c.tc : Thread nD τ).loc main_arg3)))))
            (broadcastInDim S100000x128 ![] bcast_S_S100000x128 (constant S_ .f32 0x00000000#32)))
          (transpose S128x40 [1, 0] (m ((c.tc : Thread nD τ).loc main_arg4)) transposes_S40x128_S128x40_1_0))
        (srcRow (m ((c.tc : Thread nD τ).loc main_arg1))) (dstRow (m ((c.tc : Thread nD τ).loc main_arg1)))
        (weight (srcRow (m ((c.tc : Thread nD τ).loc main_arg1))) (dstRow (m ((c.tc : Thread nD τ).loc main_arg1))))
        (m ((c.tc : Thread nD τ).loc main_arg5)) := by
  unfold res_main_v88
  rfl

/-- The reference's result: the output layer over the second dense layer of the hidden activation of the first
    aggregation of the first dense layer. -/
theorem result_eq (hc : S128.ShapeCasts S1x128) : res_main_v88 (F := Ideal) m c
    = output
        (product
          (hidden (Ideal.ofBits .f32 0x00000000#32)
            (aggregate128
              (product (m ((c.tc : Thread nD τ).loc main_arg0))
                (transpose S512x128 [1, 0] (m ((c.tc : Thread nD τ).loc main_arg2)) transposes_S128x512_S512x128_1_0))
              (srcRow (m ((c.tc : Thread nD τ).loc main_arg1))) (dstRow (m ((c.tc : Thread nD τ).loc main_arg1)))
              (weight (srcRow (m ((c.tc : Thread nD τ).loc main_arg1))) (dstRow (m ((c.tc : Thread nD τ).loc main_arg1)))))
            (shapeCast S1x128 (m ((c.tc : Thread nD τ).loc main_arg3)) hc))
          (transpose S128x40 [1, 0] (m ((c.tc : Thread nD τ).loc main_arg4)) transposes_S40x128_S128x40_1_0))
        (srcRow (m ((c.tc : Thread nD τ).loc main_arg1))) (dstRow (m ((c.tc : Thread nD τ).loc main_arg1)))
        (weight (srcRow (m ((c.tc : Thread nD τ).loc main_arg1))) (dstRow (m ((c.tc : Thread nD τ).loc main_arg1))))
        (m ((c.tc : Thread nD τ).loc main_arg5)) := by
  rw [res_folded, dot1_eq, dot0_eq, hidden_eq _ _ hc]

end Cert.ReferenceIdeal.Result

end
-- ==== Proof.Claims.lean ====
/-
  The five claims.

  Both idealized programs compute, on the extended reals, the same network: a dense layer, a weighted aggregation
  along the edges, a bias and a clamp at zero, a second dense layer, a second aggregation, and an output bias. The
  kernel program computes the two dense layers in pallas_calls tiled over the rows (and fuses the bias and the clamp
  into the second), the reference by two host products; entry by entry both are the same sums in the same order, so
  no law of the extended reals beyond reading both sides is used, and the finiteness of the inputs is never opened.
  The graph quantities are the same host operations in both programs; the reference merely computes the edge
  weights a second time from the same edge list.
-/
import proofs.«125614_j10385230922554_1_alg».proof.Defs
import proofs.«125614_j10385230922554_1_alg».proof.Proof.Gen.Kernel.Frame
import proofs.«125614_j10385230922554_1_alg».proof.Proof.Gen.KernelIdeal.Frame
import proofs.«125614_j10385230922554_1_alg».proof.Proof.Gen.ReferenceIdeal.Run
import proofs.«125614_j10385230922554_1_alg».proof.Proof.Gen.Pre_finite_inputs
import proofs.«125614_j10385230922554_1_alg».proof.Proof.KernelRun
import proofs.«125614_j10385230922554_1_alg».proof.Proof.KernelValue
import proofs.«125614_j10385230922554_1_alg».proof.Proof.ReferenceValue

set_option maxRecDepth 16384

noncomputable section

open Idealize.ShloMosaic Idealize.ShloMosaic.TcCoe Idealize.SL.Sem

namespace Cert.Proof.Bridge

/-! ## The two programs' graph functions are the same functions -/

theorem srcRow_eq (e : (⟨Cert.KernelIdeal.S2x1600000, .i32⟩ : BufTy).Contents (Elt Ideal)) :
    Cert.ReferenceIdeal.Graph.srcRow (F := Ideal) e = Cert.KernelIdeal.Graph.srcRow (F := Ideal) e := rfl

theorem dstRow_eq (e : (⟨Cert.KernelIdeal.S2x1600000, .i32⟩ : BufTy).Contents (Elt Ideal)) :
    Cert.ReferenceIdeal.Graph.dstRow (F := Ideal) e = Cert.KernelIdeal.Graph.dstRow (F := Ideal) e := rfl

theorem weight_eq (s d : (⟨Cert.KernelIdeal.S1600000, .i32⟩ : BufTy).Contents (Elt Ideal)) :
    Cert.ReferenceIdeal.Graph.weight (F := Ideal) s d = Cert.KernelIdeal.Graph.weight (F := Ideal) s d := rfl

theorem aggregate128_eq (h : (⟨Cert.KernelIdeal.S100000x128, .f32⟩ : BufTy).Contents (Elt Ideal))
    (s d : (⟨Cert.KernelIdeal.S1600000, .i32⟩ : BufTy).Contents (Elt Ideal))
    (w : (⟨Cert.KernelIdeal.S1600000, .f32⟩ : BufTy).Contents (Elt Ideal)) :
    Cert.ReferenceIdeal.Graph.aggregate128 (F := Ideal) h s d w = Cert.KernelIdeal.Graph.aggregate128 (F := Ideal) h s d w := rfl

theorem output_eq (h : (⟨Cert.KernelIdeal.S100000x40, .f32⟩ : BufTy).Contents (Elt Ideal))
    (s d : (⟨Cert.KernelIdeal.S1600000, .i32⟩ : BufTy).Contents (Elt Ideal))
    (w : (⟨Cert.KernelIdeal.S1600000, .f32⟩ : BufTy).Contents (Elt Ideal))
    (b : (⟨Cert.KernelIdeal.S40, .f32⟩ : BufTy).Contents (Elt Ideal)) :
    Cert.ReferenceIdeal.Graph.output (F := Ideal) h s d w b = Cert.KernelIdeal.Graph.output (F := Ideal) h s d w b := rfl

end Cert.Proof.Bridge

namespace Cert.Proof.GcnClaims

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing: the idealized kernel is the kernel's own text read on the extended reals. -/
theorem preserves : Cert.preserves_Kernel_KernelIdeal := trivial

/-- From memories that agree on the arguments both programs end with the result array at the same term of the
    arguments: the kernel's by reading its segments' fold, the reference's by folding its run's term. -/
theorem algebraic : Cert.algebraic_KernelIdeal_ReferenceIdeal := by
  intro m ρ m' ρ' _ hagree
  refine ⟨fun c => Cert.KernelIdeal.Gen.W5 m ρ c (Proc.devRef .tc Cert.KernelIdeal.main_v59),
    Cert.KernelIdeal.RunValue.run (F := Ideal) m ρ, ?_⟩
  refine (θ_run Cert.ReferenceIdeal.defs _ _).mono (fun _ h c => ⟨(h c).1.trans ?_, (h c).2⟩)
    (Cert.ReferenceIdeal.Value.run (F := Ideal) m' ρ')
  show _ = Cert.KernelIdeal.Gen.W5 m ρ c (Proc.devRef .tc Cert.KernelIdeal.main_v59)
  rw [Cert.KernelIdeal.Result.result_eq m ρ c,
    Cert.ReferenceIdeal.Result.result_eq m' c Cert.KernelIdeal.Facts₀.shapeCasts_S128_S1x128]
  obtain ⟨a0, a1, a2, a3, a4, a5⟩ := hagree c
  rw [a0, a1, a2, a3, a4, a5, Bridge.output_eq, Bridge.aggregate128_eq, Bridge.weight_eq, Bridge.srcRow_eq, Bridge.dstRow_eq]

end Cert.Proof.GcnClaims

end
-- ==== Proof.lean ====
/-
  A two-layer graph convolution network: a Pallas kernel program against its jnp reference, on the extended reals.

  Both programs map node features `x` (100000 × 512), an edge list (2 × 1600000) and two weight/bias pairs to
      out = A (relu (A (x · W0ᵀ) + b0) · W1ᵀ) + b1,
  where `A` is the symmetric-normalised aggregation along the edges (gather the source rows, scale by
  `1/√(deg src · deg dst)`, scatter-add into the destination rows). The kernel program computes the two products in
  pallas_calls over 20 tiles of 5000 rows, fusing the bias and the clamp into the second; the reference uses two host
  products. Entry by entry the products are the same sums over the contracted axis in the same order, and the
  aggregation is the same host operations in both programs, so the two results are one term of the arguments.

  The modules: `Layers` (the dense layer and the hidden activation entry by entry), `Layer0Value` / `Layer1Value`
  (what each pallas_call leaves), `KernelRun` (the kernel program's run with its result named), `KernelGraph` /
  `ReferenceGraph` (the aggregation's host operations as functions), `KernelValue` / `ReferenceValue` (each program's
  result as the layers), `Claims` (the five claims).
-/
import proofs.«125614_j10385230922554_1_alg».proof.Defs
import proofs.«125614_j10385230922554_1_alg».proof.Proof.Gen.Kernel
import proofs.«125614_j10385230922554_1_alg».proof.Proof.Gen.Kernel.Skeleton
import proofs.«125614_j10385230922554_1_alg».proof.Proof.Gen.Kernel.Launch
import proofs.«125614_j10385230922554_1_alg».proof.Proof.Gen.Kernel.Points
import proofs.«125614_j10385230922554_1_alg».proof.Proof.Gen.Kernel.Frame
import proofs.«125614_j10385230922554_1_alg».proof.Proof.Gen.KernelIdeal
import proofs.«125614_j10385230922554_1_alg».proof.Proof.Gen.KernelIdeal.Skeleton
import proofs.«125614_j10385230922554_1_alg».proof.Proof.Gen.KernelIdeal.Launch
import proofs.«125614_j10385230922554_1_alg».proof.Proof.Gen.KernelIdeal.Points
import proofs.«125614_j10385230922554_1_alg».proof.Proof.Gen.KernelIdeal.Frame
import proofs.«125614_j10385230922554_1_alg».proof.Proof.Gen.ReferenceIdeal
import proofs.«125614_j10385230922554_1_alg».proof.Proof.Gen.ReferenceIdeal.Run
import proofs.«125614_j10385230922554_1_alg».proof.Proof.Gen.Pre_finite_inputs
import proofs.«125614_j10385230922554_1_alg».proof.Proof.Claims
import Idealize.ShloMosaic.Adequacy
import Idealize.ShloMosaic.Init

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_finite_inputs.Gen.facts,
  GcnClaims.frame_k, GcnClaims.frame_ki, GcnClaims.frame_ri, GcnClaims.preserves, GcnClaims.algebraic⟩

end Cert.Proof

end
